-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S16384x512 .f32) (main_arg1 : FVec F S16384x16384 .f32) (main_arg2 : FVec F S512x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S16384x512 : Shape := ⟨2, ![16384, 512]⟩
abbrev S16384x16384 : Shape := ⟨2, ![16384, 16384]⟩
abbrev S512x128 : Shape := ⟨2, ![512, 128]⟩
abbrev S16384x128 : Shape := ⟨2, ![16384, 128]⟩
abbrev S2048x512 : Shape := ⟨2, ![2048, 512]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 5
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x128, .bf16⟩
  | .hbm, ⟨4, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .bf16⟩
  | .local _ .vmem, ⟨4, _⟩ => ⟨S2048x128, .bf16⟩
  | .local _ .vmem, ⟨5, _⟩ => ⟨S1024x2048, .f32⟩
  | .local _ .vmem, ⟨6, _⟩ => ⟨S1024x2048, .f32⟩
  | .local _ .vmem, ⟨7, _⟩ => ⟨S16384x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S2048x128_S2048x128 : S2048x128.ShapeCasts S2048x128
  dot_S2048x512_S512x128_S2048x128_1_0_0_1_n_n_wf : DotDims.WF S2048x512 S512x128 S2048x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .bf16 = 32 ∨ (Rect.block (s := S16384x128) S2048x128.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x128, .f32⟩
  | .hbm, ⟨4, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KbR0.lean ====
/-
  Region 0 — the projection x = inputs · weights, one block of 2048 rows per grid point.
  At a parameter V (the core's buffer contents when the region is entered): what each window's block is
  at a point, what the body's one store leaves in the output block (the product of the point's row block of
  the inputs with the whole weight matrix), the body's triple, the pipeline's proof data and the body obligation
  at every point. Stated for any float instance.
-/
import proofs.«138268_j53240414601890_2_alg».proof.Proof.Gen.Kernel.Launch
import proofs.«138268_j53240414601890_2_alg».proof.Proof.Gen.Kernel.Skeleton
import proofs.«138268_j53240414601890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the inputs is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
end

/-- The whole-block rectangles the body reads and writes through. -/
abbrev rIn0 : Rect S2048x512 := Rect.unit (s := S2048x512) ![0, 0] S2048x512.size inb_S2048x512_S2048x512_0_0
abbrev rW0 : Rect S512x128 := Rect.unit (s := S512x128) ![0, 0] S512x128.size inb_S512x128_S512x128_0_0
abbrev rOut0 : Rect S2048x128 := Rect.unit (s := S2048x128) ![0, 0] S2048x128.size inb_S2048x128_S2048x128_0_0

/-- What the body leaves in the output block, from the two input blocks: its one store's payload over the whole block. -/
def projOut (x0 : Vec F S2048x512 .f32) (x1 : Vec F S512x128 .f32) : Vec F S2048x128 .bf16 :=
  View.canon [⟨rOut0, k0_pay1 (View.ld x0 rIn0) (View.ld x1 rW0)⟩]

/-- The one store covers the block. -/
theorem projCover (p0 : Vec F S2048x128 .bf16) (y : S2048x128.Idx) :
    ∃ pc ∈ ([⟨rOut0, p0⟩] : List (View.Piece (Elt F) S2048x128 .bf16)), y ∈ pc.1.set :=
  View.cover_of_tiled [⟨rOut0, p0⟩] S2048x128.size (by rfl) y

set_option maxHeartbeats 1000000 in
/-- The body on whole staging memrefs, the inputs' at contents x0, x1 and the output's at anything, runs to the
    continuation with the inputs as they were and the output block at projOut x0 x1. -/
theorem projTriple (c : Dev nD) (E : Set ℕ) (i : grid0.Coords) (arg1 : Memref sig .tc .vmem S2048x512 .f32) (harg1 : arg1.IsWhole)
    (arg2 : Memref sig .tc .vmem S512x128 .f32) (harg2 : arg2.IsWhole) (arg3 : Memref sig .tc .vmem S2048x128 .bf16) (harg3 : arg3.IsWhole)
    (x0 : Vec F S2048x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

section
variable (V : (c : Dev nD) → (b : Ref sig .tc) → Buf (Elt F) ((c : Thread nD τ).loc b))

/-- The proof data of region 0 on core c: the arrays as the region finds them; after the body at point t each input's
    buffer at its block and the output's at projOut of the two input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = projOut (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (projTriple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t
end

end Cert.Kernel.Fr

end
-- ==== Proof.KbR1a.lean ====
/-
  Region 1 — the aggregation out = adj · x, a 16 × 8 grid: the row block i of the output is accumulated over the 8
  column tiles k of adj in a scratch buffer that is zeroed at k = 0 and copied to the output block at k = 7.
  This module holds what the three control cases of the body share: the windows' blocks at a point, the two branch
  conditions in closed form over the grid, where the output window is idle, and the region's class invariant opened
  into its buffers. Stated for any float instance.
-/
import proofs.«138268_j53240414601890_2_alg».proof.Proof.Gen.Kernel.Launch
import proofs.«138268_j53240414601890_2_alg».proof.Proof.Gen.Kernel.Skeleton
import proofs.«138268_j53240414601890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of adj is in its staging buffer at every point (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole of x is in its staging buffer at every point: fetched at the first, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
end

/-! ## The two branch conditions -/

/-- The first branch (zero the accumulator) is taken when the tile coordinate is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The second branch (copy the accumulator out) is taken when the tile coordinate is 7. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from the last tile the output window is idle: nothing is stored into it, -/
theorem idle1_2 : ∀ t : Fin cfg1.N, ¬isLast (grid1.coords t) → cfg1.idle 2 (grid1.coords t) = true := by decide +kernel
/-- and it is not written back there. -/
theorem noFlush1_2 : ∀ t : Fin cfg1.N, ¬isLast (grid1.coords t) → (cfg1.win 2).flush t = false := by decide +kernel
/-- At the last tile it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev accM : Memref sig .tc .vmem S1024x128 .f32 := Memref.whole cc1_scratch0
/-- The views through which the output block's and the accumulator's contents are stated. -/
abbrev outV : View sig .tc .vmem S1024x128 .f32 := (Memref.whole cc1_stg2_0 : Memref sig .tc .vmem S1024x128 .f32).view
abbrev accV : View sig .tc .vmem S1024x128 .f32 := accM.view

/-- A scoped buffer of the other region, at some contents. -/
abbrev someBuf (c : Dev nD) (b : Ref sig .tc) : sProp 𝕄 :=
  iprop(∃ f : Buf (Elt F) ((c : Thread nD τ).loc b), ((c : Thread nD τ).loc b) ↦{fullShare} f)

/-- The class invariant of region 1 opened: the other region's five staging buffers at some contents, the accumulator
    owned at some contents, the generator register at some state. -/
theorem classInv1_eq (c : Dev nD) :
    (Pipeline.ΦA spec1 c : sProp 𝕄)
      = iprop(iprop(someBuf c cc0_stg0_0 ∗ someBuf c cc0_stg0_1 ∗ someBuf c cc0_stg1_0 ∗ someBuf c cc0_stg2_0 ∗ someBuf c cc0_stg2_1
          ∗ (∃ d, owns (c : Thread nD τ) accM fullShare d)) ∗ (∃ r, prngReg c r)) := by
  unfold Pipeline.ΦA; rw [scopedRest1_eq]; simp only [accM, owns_whole]; try rfl

end Cert.Kernel.Fr

end
-- ==== Proof.KbR1Runs.lean ====
/-
  Region 1 — the body's run in each of its three control cases: the first tile (the accumulator is zeroed, then the
  tile's product is added; the output block is not touched), a middle tile (the product is added to what the previous
  tile left), the last tile (the same, and the accumulator is copied to the output block). In each case the run states
  which pieces end up written in the accumulator, and in the last case in the output block.
-/
import proofs.«138268_j53240414601890_2_alg».proof.Proof.Gen.Kernel.Launch
import proofs.«138268_j53240414601890_2_alg».proof.Proof.Gen.Kernel.Skeleton
import proofs.«138268_j53240414601890_2_alg».proof.Proof.Gen.Kernel.Points
import proofs.«138268_j53240414601890_2_alg».proof.Proof.KbR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST TILE. On whole staging memrefs — the inputs at their contents, the output block at contents handed back
    untouched, the accumulator at anything — the body runs to the continuation with the inputs as they were and the
    accumulator with its pieces written. -/
noncomputable def aggRunFirst (c : Dev nD) (i : grid1.Coords) (arg2 : Memref sig .tc .vmem S1024x2048 .f32) (harg2 : arg2.IsWhole)
    (arg3 : Memref sig .tc .vmem S16384x128 .bf16) (harg3 : arg3.IsWhole) (arg4 : Memref sig .tc .vmem S1024x128 .f32) (harg4 : arg4.IsWhole)
    (arg5 : Memref sig .tc .vmem S1024x128 .f32) (harg5 : arg5.IsWhole) (hc0 : isFirst i) (hc1 : ¬isLast i)
    (x0 : Vec F S1024x2048 .f32) (x1 : Vec F S16384x128 .bf16) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE TILE. The accumulator is handed in at the contents xs the previous tile left. -/
noncomputable def aggRunMid (c : Dev nD) (i : grid1.Coords) (arg2 : Memref sig .tc .vmem S1024x2048 .f32) (harg2 : arg2.IsWhole)
    (arg3 : Memref sig .tc .vmem S16384x128 .bf16) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : ¬isLast i)
    (x0 : Vec F S1024x2048 .f32) (x1 : Vec F S16384x128 .bf16) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST TILE. The accumulator is handed in at xs, the output block at anything; both end with their pieces written. -/
noncomputable def aggRunLast (c : Dev nD) (i : grid1.Coords) (arg2 : Memref sig .tc .vmem S1024x2048 .f32) (harg2 : arg2.IsWhole)
    (arg3 : Memref sig .tc .vmem S16384x128 .bf16) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : isLast i)
    (x0 : Vec F S1024x2048 .f32) (x1 : Vec F S16384x128 .bf16) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Fr

end
-- ==== Proof.KbR1.lean ====
/-
  Region 1 — what the accumulator and the output block hold after each grid point, the region's invariant (it names
  the accumulator's contents from the second point on), the pipeline's proof data, and the body obligation at every
  point: by cases on the tile coordinate (first, middle, last), each closed by that case's run of the body.
-/
import proofs.«138268_j53240414601890_2_alg».proof.Proof.Gen.Kernel.Launch
import proofs.«138268_j53240414601890_2_alg».proof.Proof.Gen.Kernel.Skeleton
import proofs.«138268_j53240414601890_2_alg».proof.Proof.Gen.Kernel.Points
import proofs.«138268_j53240414601890_2_alg».proof.Proof.KbR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- First tile at point t: the accumulator's pieces cover it, -/
theorem accCoverFirst (c : Dev nD) (t : Fin cfg1.N) (hc0 : isFirst (grid1.coords t)) (hc1 : ¬isLast (grid1.coords t))
    (x0 : Vec F S1024x2048 .f32) (x1 : Vec F S16384x128 .bf16) (y : S1024x128.Idx) :
    ∃ pc ∈ (aggRunFirst c (grid1.coords t) (ms1_0 t) (hs1_0 t) (ms1_1 t) (hs1_1 t) (ms1_2 t) (hs1_2 t) accM (Memref.isWhole_whole _) hc0 hc1 x0 x1).1, y ∈ pc.1.set :=
  View.cover_of_tiledL (aggRunFirst c (grid1.coords t) (ms1_0 t) (hs1_0 t) (ms1_1 t) (hs1_1 t) (ms1_2 t) (hs1_2 t) accM (Memref.isWhole_whole _) hc0 hc1 x0 x1).1 S1024x128.size (by sl_kernel_rfl) y
/-- and what it then holds. -/
def accFirstAt (c : Dev nD) (t : Fin cfg1.N) (hc0 : isFirst (grid1.coords t)) (hc1 : ¬isLast (grid1.coords t))
    (x0 : Vec F S1024x2048 .f32) (x1 : Vec F S16384x128 .bf16) : Vec F S1024x128 .f32 :=
  accV.read (Elt F) (accV.writes (Elt F) accV.junk (aggRunFirst c (grid1.coords t) (ms1_0 t) (hs1_0 t) (ms1_1 t) (hs1_1 t) (ms1_2 t) (hs1_2 t) accM (Memref.isWhole_whole _) hc0 hc1 x0 x1).1)

/-- Middle tile at point t, over what the previous point left (xs). -/
theorem accCoverMid (c : Dev nD) (t : Fin cfg1.N) (hc0 : ¬isFirst (grid1.coords t)) (hc1 : ¬isLast (grid1.coords t))
    (x0 : Vec F S1024x2048 .f32) (x1 : Vec F S16384x128 .bf16) (xs : Vec F S1024x128 .f32) (y : S1024x128.Idx) :
    ∃ pc ∈ (aggRunMid c (grid1.coords t) (ms1_0 t) (hs1_0 t) (ms1_1 t) (hs1_1 t) (ms1_2 t) (hs1_2 t) accM (Memref.isWhole_whole _) hc0 hc1 x0 x1 xs).1, y ∈ pc.1.set :=
  View.cover_of_tiledL (aggRunMid c (grid1.coords t) (ms1_0 t) (hs1_0 t) (ms1_1 t) (hs1_1 t) (ms1_2 t) (hs1_2 t) accM (Memref.isWhole_whole _) hc0 hc1 x0 x1 xs).1 S1024x128.size (by sl_kernel_rfl) y
def accMidAt (c : Dev nD) (t : Fin cfg1.N) (hc0 : ¬isFirst (grid1.coords t)) (hc1 : ¬isLast (grid1.coords t))
    (x0 : Vec F S1024x2048 .f32) (x1 : Vec F S16384x128 .bf16) (xs : Vec F S1024x128 .f32) : Vec F S1024x128 .f32 :=
  accV.read (Elt F) (accV.writes (Elt F) accV.junk (aggRunMid c (grid1.coords t) (ms1_0 t) (hs1_0 t) (ms1_1 t) (hs1_1 t) (ms1_2 t) (hs1_2 t) accM (Memref.isWhole_whole _) hc0 hc1 x0 x1 xs).1)

/-- Last tile at point t: the output block's pieces cover it, -/
theorem outCoverLast (c : Dev nD) (t : Fin cfg1.N) (hc0 : ¬isFirst (grid1.coords t)) (hc1 : isLast (grid1.coords t))
    (x0 : Vec F S1024x2048 .f32) (x1 : Vec F S16384x128 .bf16) (xs : Vec F S1024x128 .f32) (y : S1024x128.Idx) :
    ∃ pc ∈ (aggRunLast c (grid1.coords t) (ms1_0 t) (hs1_0 t) (ms1_1 t) (hs1_1 t) (ms1_2 t) (hs1_2 t) accM (Memref.isWhole_whole _) hc0 hc1 x0 x1 xs).1, y ∈ pc.1.set :=
  View.cover_of_tiledL (aggRunLast c (grid1.coords t) (ms1_0 t) (hs1_0 t) (ms1_1 t) (hs1_1 t) (ms1_2 t) (hs1_2 t) accM (Memref.isWhole_whole _) hc0 hc1 x0 x1 xs).1 S1024x128.size (by sl_kernel_rfl) y
def outLastAt (c : Dev nD) (t : Fin cfg1.N) (hc0 : ¬isFirst (grid1.coords t)) (hc1 : isLast (grid1.coords t))
    (x0 : Vec F S1024x2048 .f32) (x1 : Vec F S16384x128 .bf16) (xs : Vec F S1024x128 .f32) : Vec F S1024x128 .f32 :=
  outV.read (Elt F) (outV.writes (Elt F) outV.junk (aggRunLast c (grid1.coords t) (ms1_0 t) (hs1_0 t) (ms1_1 t) (hs1_1 t) (ms1_2 t) (hs1_2 t) accM (Memref.isWhole_whole _) hc0 hc1 x0 x1 xs).1)
/-- and so do the accumulator's. -/
theorem accCoverLast (c : Dev nD) (t : Fin cfg1.N) (hc0 : ¬isFirst (grid1.coords t)) (hc1 : isLast (grid1.coords t))
    (x0 : Vec F S1024x2048 .f32) (x1 : Vec F S16384x128 .bf16) (xs : Vec F S1024x128 .f32) (y : S1024x128.Idx) :
    ∃ pc ∈ (aggRunLast c (grid1.coords t) (ms1_0 t) (hs1_0 t) (ms1_1 t) (hs1_1 t) (ms1_2 t) (hs1_2 t) accM (Memref.isWhole_whole _) hc0 hc1 x0 x1 xs).2.1, y ∈ pc.1.set :=
  View.cover_of_tiledL (aggRunLast c (grid1.coords t) (ms1_0 t) (hs1_0 t) (ms1_1 t) (hs1_1 t) (ms1_2 t) (hs1_2 t) accM (Memref.isWhole_whole _) hc0 hc1 x0 x1 xs).2.1 S1024x128.size (by sl_kernel_rfl) y
def accLastAt (c : Dev nD) (t : Fin cfg1.N) (hc0 : ¬isFirst (grid1.coords t)) (hc1 : isLast (grid1.coords t))
    (x0 : Vec F S1024x2048 .f32) (x1 : Vec F S16384x128 .bf16) (xs : Vec F S1024x128 .f32) : Vec F S1024x128 .f32 :=
  accV.read (Elt F) (accV.writes (Elt F) accV.junk (aggRunLast c (grid1.coords t) (ms1_0 t) (hs1_0 t) (ms1_1 t) (hs1_1 t) (ms1_2 t) (hs1_2 t) accM (Memref.isWhole_whole _) hc0 hc1 x0 x1 xs).2.1)

/-- Where the output block is idle nothing consults its contents: a placeholder. -/
def outIdle : Vec F S1024x128 .f32 := outV.read (Elt F) (outV.writes (Elt F) outV.junk [])

/-! ## The accumulation, point by point -/

/-- What the output block's staging buffer (first component) and the accumulator (second) hold after the body at
    position n: the case the tile coordinate selects, run on the point's blocks, over what position n − 1 left in the
    accumulator. -/
def stAt1 (c : Dev nD) : (n : ℕ) → n < cfg1.N → Vec F S1024x128 .f32 × Vec F S1024x128 .f32
  | 0, hn => (outIdle, accFirstAt c ⟨0, hn⟩ ((isFirst_iff ⟨0, hn⟩).mpr (Nat.zero_mod _)) (fun h => (fun h' => by (try dsimp only at h'); omega) ((isLast_iff ⟨0, hn⟩).mp h))
      (blk1 V c 0 ⟨0, hn⟩) (blk1 V c 1 ⟨0, hn⟩))
  | n + 1, hn =>
    if h0 : (n + 1) % 8 = 0 then
      (outIdle, accFirstAt c ⟨n + 1, hn⟩ ((isFirst_iff ⟨n + 1, hn⟩).mpr h0) (fun h => (fun h' => by (try dsimp only at h'); omega) ((isLast_iff ⟨n + 1, hn⟩).mp h))
        (blk1 V c 0 ⟨n + 1, hn⟩) (blk1 V c 1 ⟨n + 1, hn⟩))
    else if h1 : (n + 1) % 8 = 7 then
      (outLastAt c ⟨n + 1, hn⟩ (fun h => h0 ((isFirst_iff ⟨n + 1, hn⟩).mp h)) ((isLast_iff ⟨n + 1, hn⟩).mpr h1)
          (blk1 V c 0 ⟨n + 1, hn⟩) (blk1 V c 1 ⟨n + 1, hn⟩) (stAt1 c n (Nat.lt_of_succ_lt hn)).2,
        accLastAt c ⟨n + 1, hn⟩ (fun h => h0 ((isFirst_iff ⟨n + 1, hn⟩).mp h)) ((isLast_iff ⟨n + 1, hn⟩).mpr h1)
          (blk1 V c 0 ⟨n + 1, hn⟩) (blk1 V c 1 ⟨n + 1, hn⟩) (stAt1 c n (Nat.lt_of_succ_lt hn)).2)
    else
      (outIdle, accMidAt c ⟨n + 1, hn⟩ (fun h => h0 ((isFirst_iff ⟨n + 1, hn⟩).mp h)) (fun h => h1 ((isLast_iff ⟨n + 1, hn⟩).mp h))
        (blk1 V c 0 ⟨n + 1, hn⟩) (blk1 V c 1 ⟨n + 1, hn⟩) (stAt1 c n (Nat.lt_of_succ_lt hn)).2)

theorem stAt1_first (c : Dev nD) (t : Fin cfg1.N) (h0 : t.val % 8 = 0) (h1 : ¬t.val % 8 = 7) :
    stAt1 V c t.val t.isLt = (outIdle, accFirstAt c t ((isFirst_iff t).mpr h0) (fun h => h1 ((isLast_iff t).mp h)) (blk1 V c 0 t) (blk1 V c 1 t)) := by
  obtain ⟨n, hn⟩ := t
  cases n with
  | zero => exact rfl
  | succ n => exact (dif_pos h0).trans rfl

theorem stAt1_mid (c : Dev nD) (t : Fin cfg1.N) (h0 : ¬t.val % 8 = 0) (h1 : ¬t.val % 8 = 7) :
    stAt1 V c t.val t.isLt = (outIdle, accMidAt c t (fun h => h0 ((isFirst_iff t).mp h)) (fun h => h1 ((isLast_iff t).mp h)) (blk1 V c 0 t) (blk1 V c 1 t)
      (stAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem stAt1_last (c : Dev nD) (t : Fin cfg1.N) (h0 : ¬t.val % 8 = 0) (h1 : t.val % 8 = 7) :
    stAt1 V c t.val t.isLt = (outLastAt c t (fun h => h0 ((isFirst_iff t).mp h)) ((isLast_iff t).mpr h1) (blk1 V c 0 t) (blk1 V c 1 t)
        (stAt1 V c (t.val - 1) (Nat.lt_of_le_of_lt (Nat.sub_le _ _) t.isLt)).2,
      accLastAt c t (fun h => h0 ((isFirst_iff t).mp h)) ((isLast_iff t).mpr h1) (blk1 V c 0 t) (blk1 V c 1 t)
        (stAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position n: at n = 0 the class invariant (the accumulator at anything); afterwards the other region's
    buffers at anything, the accumulator at what position n − 1 left in it, the generator register at some state. -/
def accInv (c : Dev nD) : (n : ℕ) → n ≤ cfg1.N → sProp 𝕄
  | 0, _ => Pipeline.ΦA spec1 c
  | n + 1, hn => iprop(iprop(someBuf c cc0_stg0_0 ∗ someBuf c cc0_stg0_1 ∗ someBuf c cc0_stg1_0 ∗ someBuf c cc0_stg2_0 ∗ someBuf c cc0_stg2_1
      ∗ owns (c : Thread nD τ) accM fullShare ((stAt1 V c n hn).2)) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(iprop(someBuf c cc0_stg0_0 ∗ someBuf c cc0_stg0_1 ∗ someBuf c cc0_stg1_0 ∗ someBuf c cc0_stg2_0 ∗ someBuf c cc0_stg2_1
      ∗ owns (c : Thread nD τ) accM fullShare ((stAt1 V c n hn).2)) ∗ (∃ r, prngReg c r)) := rfl

theorem accInv_pos (c : Dev nD) (n : ℕ) (h : n ≤ cfg1.N) (hz : n ≠ 0) :
    accInv V c n h = iprop(iprop(someBuf c cc0_stg0_0 ∗ someBuf c cc0_stg0_1 ∗ someBuf c cc0_stg1_0 ∗ someBuf c cc0_stg2_0 ∗ someBuf c cc0_stg2_1
      ∗ owns (c : Thread nD τ) accM fullShare ((stAt1 V c (n - 1) (by omega)).2)) ∗ (∃ r, prngReg c r)) := by
  cases n with
  | zero => exact absurd rfl hz
  | succ n => rfl

/-! ## The proof data -/

/-- The proof data of region 1 on core c: the arrays as the region finds them; after the body at point t each input's
    buffer at its block and the output's at stAt1's first component; the invariant accInv; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stAt1 V c t.val t.isLt).1
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv_castSucc (c : Dev nD) (t : Fin cfg1.N) :
    (dat1 V c).Φ t.castSucc = accInv V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (stAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the tile coordinate says which case the point is in;
    the invariant hands the body the accumulator at what the point before left (at anything before the first point)
    and takes it back at this point's contents; the output block is handed back untouched except at the last tile;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 128 := lt_of_lt_of_eq t.isLt (show cfg1.N = 128 from N_1)
  by_cases h0 : t.val % 8 = 0
  · have h1 : ¬t.val % 8 = 7 := by omega
    rw [Dat.leavesExact_idle (dat1 V c) 2 t (idle1_2 t (fun h => h1 ((isLast_iff t).mp h))) (noFlush1_2 t (fun h => h1 ((isLast_iff t).mp h)))]
    rw [stAt1_first V c t h0 h1]
    unfold accFirstAt; (try dsimp only)
    by_cases hz : t.val = 0
    · rw [inv_castSucc V c t, accInv_zero V c _ _ hz, classInv1_eq]
      iintro ⟨⟨⟨HA, HB, HC, HD, HE, HS⟩, Hg⟩, Ho, ⟨%d0, H0⟩, ⟨%d1, H1⟩, ⟨%d2, H2⟩⟩
      iapply ((aggRunFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverFirst c t _ _ _ _)
        iexact Hg
      isplitl [Ho]; · iexact Ho
      isplitl [H0]; · iexact H0
      isplitl [H1]; · iexact H1
      iexists _; iexact H2
    · rw [inv_castSucc V c t, accInv_pos V c _ _ hz]
      iintro ⟨⟨⟨HA, HB, HC, HD, HE, HS⟩, Hg⟩, Ho, ⟨%d0, H0⟩, ⟨%d1, H1⟩, ⟨%d2, H2⟩⟩
      iapply ((aggRunFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverFirst c t _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [live1_2 t ((isLast_iff t).mpr h1)], after1_2]
      rw [stAt1_last V c t h0 h1]
      unfold outLastAt accLastAt; (try dsimp only)
      rw [inv_castSucc V c t, accInv_pos V c _ _ hz]
      iintro ⟨⟨⟨HA, HB, HC, HD, HE, HS⟩, Hg⟩, Ho, ⟨%d0, H0⟩, ⟨%d1, H1⟩, ⟨%d2, H2⟩⟩
      iapply ((aggRunLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverLast c t _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c t _ _ _ _ _)
    · rw [Dat.leavesExact_idle (dat1 V c) 2 t (idle1_2 t (fun h => h1 ((isLast_iff t).mp h))) (noFlush1_2 t (fun h => h1 ((isLast_iff t).mp h)))]
      rw [stAt1_mid V c t h0 h1]
      unfold accMidAt; (try dsimp only)
      rw [inv_castSucc V c t, accInv_pos V c _ _ hz]
      iintro ⟨⟨⟨HA, HB, HC, HD, HE, HS⟩, Hg⟩, Ho, ⟨%d0, H0⟩, ⟨%d1, H1⟩, ⟨%d2, H2⟩⟩
      iapply ((aggRunMid c (grid1.coords t) _ _ _ _ _ _ _ _ (fun h => h0 ((isFirst_iff t).mp h)) (fun h => h1 ((isLast_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverMid c t _ _ _ _ _)
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's contents forgotten. -/
theorem inv_forget (c : Dev nD) (t : Fin (cfg1.N + 1)) (ht : t.val ≠ 0) : (dat1 V c).Φ t ⊢ Pipeline.ΦA spec1 c := by
  rw [show (dat1 V c).Φ t = accInv V c t.val (Nat.le_of_lt_succ t.isLt) from rfl, accInv_pos V c _ _ ht, classInv1_eq]
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

theorem inv_last (c : Dev nD) : (dat1 V c).Φ (Fin.last cfg1.N) ⊢ Pipeline.ΦA spec1 c :=
  inv_forget V c _ (by rw [Fin.val_last]; have : cfg1.N = 128 := N_1; omega)

theorem inv_first (c : Dev nD) : (dat1 V c).Φ 0 = Pipeline.ΦA spec1 c := rfl
end

end Cert.Kernel.Fr

end
-- ==== Proof.KbRun.lean ====
/-
  The run of the whole program: region 0, then region 1. The buffer contents at the two boundaries — at launch; after
  region 0 (its arrays at what its write-backs leave, everything else as before); after region 1 likewise — each
  region as a segment entered from one boundary's contents and left at the next, and the run: every weakly fair
  execution terminates and every unscoped buffer ends at the last boundary's contents. The three argument arrays walk
  back through the boundaries to their launch contents, which is the frame claim.
-/
import proofs.«138268_j53240414601890_2_alg».proof.Proof.Gen.Kernel.Launch
import proofs.«138268_j53240414601890_2_alg».proof.Proof.Gen.Kernel.Skeleton
import proofs.«138268_j53240414601890_2_alg».proof.Proof.Gen.Kernel.Points
import proofs.«138268_j53240414601890_2_alg».proof.Proof.KbR0
import proofs.«138268_j53240414601890_2_alg».proof.Proof.KbR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0 (region 1's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1 (the end). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

/-- The inputs: region 0 reads them through an input window, region 1 does not touch them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The weights: the same. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- What region 1 finds in adj is its launch contents: region 0 does not touch it. -/
theorem V1_main_arg1 (c : Dev nD) : V1 m ρ c main_arg1 = m ((c : Thread nD τ).loc main_arg1) :=
  (W1_of_ne m ρ c main_arg1 (by decide)).trans rfl
/-- adj: region 1 reads it through an input window. -/
theorem W2_main_arg1 (c : Dev nD) : W2 m ρ c (Proc.devRef .tc main_arg1) = m ((c : Thread nD τ).loc main_arg1) :=
  calc W2 m ρ c (Proc.devRef .tc main_arg1)
    _ = V1 m ρ c main_arg1 := (W2_arr m ρ c 0).trans (((dat1 (V1 m ρ) c).arrAt_in 0 rfl _).trans (A_eq1 (V1 m ρ) c 0))
    _ = m ((c : Thread nD τ).loc main_arg1) := V1_main_arg1 m ρ c
/-- The result array ends at what region 1's write-backs leave, -/
theorem W2_main_v1 (c : Dev nD) : W2 m ρ c (Proc.devRef .tc main_v1) = (dat1 (V1 m ρ) c).arrAt 2 cfg1.N :=
  W2_arr m ρ c 2
/-- computed from x as region 0's write-backs left it. -/
theorem V1_main_v0 (c : Dev nD) : V1 m ρ c main_v0 = (dat0 (V0 m ρ) c).arrAt 2 cfg0.N :=
  W1_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- REGION 0 as a segment: entered from every unscoped buffer at the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at W1, left at W2. Its invariant tracks the
    accumulator: it is the class invariant before the first point, and gives the class invariant back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from inv_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN. From any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- THE RUN WITH THE RESULT NAMED: the result array ends at what region 1's write-backs leave of the launch contents
    of adj and of x as region 0's write-backs left it; the arguments end as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.Kernel.Fr

end
-- ==== Proof.KiR0.lean ====
/-
  Region 0 — the projection x = inputs · weights, one block of 2048 rows per grid point.
  At a parameter V (the core's buffer contents when the region is entered): what each window's block is
  at a point, what the body's one store leaves in the output block (the product of the point's row block of
  the inputs with the whole weight matrix), the body's triple, the pipeline's proof data and the body obligation
  at every point. Stated for any float instance.
-/
import proofs.«138268_j53240414601890_2_alg».proof.Proof.Gen.KernelIdeal.Launch
import proofs.«138268_j53240414601890_2_alg».proof.Proof.Gen.KernelIdeal.Skeleton
import proofs.«138268_j53240414601890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the inputs is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
end

/-- The whole-block rectangles the body reads and writes through. -/
abbrev rIn0 : Rect S2048x512 := Rect.unit (s := S2048x512) ![0, 0] S2048x512.size inb_S2048x512_S2048x512_0_0
abbrev rW0 : Rect S512x128 := Rect.unit (s := S512x128) ![0, 0] S512x128.size inb_S512x128_S512x128_0_0
abbrev rOut0 : Rect S2048x128 := Rect.unit (s := S2048x128) ![0, 0] S2048x128.size inb_S2048x128_S2048x128_0_0

/-- What the body leaves in the output block, from the two input blocks: its one store's payload over the whole block. -/
def projOut (x0 : Vec F S2048x512 .f32) (x1 : Vec F S512x128 .f32) : Vec F S2048x128 .bf16 :=
  View.canon [⟨rOut0, k0_pay1 (View.ld x0 rIn0) (View.ld x1 rW0)⟩]

/-- The one store covers the block. -/
theorem projCover (p0 : Vec F S2048x128 .bf16) (y : S2048x128.Idx) :
    ∃ pc ∈ ([⟨rOut0, p0⟩] : List (View.Piece (Elt F) S2048x128 .bf16)), y ∈ pc.1.set :=
  View.cover_of_tiled [⟨rOut0, p0⟩] S2048x128.size (by rfl) y

set_option maxHeartbeats 1000000 in
/-- The body on whole staging memrefs, the inputs' at contents x0, x1 and the output's at anything, runs to the
    continuation with the inputs as they were and the output block at projOut x0 x1. -/
theorem projTriple (c : Dev nD) (E : Set ℕ) (i : grid0.Coords) (arg1 : Memref sig .tc .vmem S2048x512 .f32) (harg1 : arg1.IsWhole)
    (arg2 : Memref sig .tc .vmem S512x128 .f32) (harg2 : arg2.IsWhole) (arg3 : Memref sig .tc .vmem S2048x128 .bf16) (harg3 : arg3.IsWhole)
    (x0 : Vec F S2048x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

section
variable (V : (c : Dev nD) → (b : Ref sig .tc) → Buf (Elt F) ((c : Thread nD τ).loc b))

/-- The proof data of region 0 on core c: the arrays as the region finds them; after the body at point t each input's
    buffer at its block and the output's at projOut of the two input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = projOut (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (projTriple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t
end

end Cert.KernelIdeal.Fr

end
-- ==== Proof.KiR1a.lean ====
/-
  Region 1 — the aggregation out = adj · x, a 16 × 8 grid: the row block i of the output is accumulated over the 8
  column tiles k of adj in a scratch buffer that is zeroed at k = 0 and copied to the output block at k = 7.
  This module holds what the three control cases of the body share: the windows' blocks at a point, the two branch
  conditions in closed form over the grid, where the output window is idle, and the region's class invariant opened
  into its buffers. Stated for any float instance.
-/
import proofs.«138268_j53240414601890_2_alg».proof.Proof.Gen.KernelIdeal.Launch
import proofs.«138268_j53240414601890_2_alg».proof.Proof.Gen.KernelIdeal.Skeleton
import proofs.«138268_j53240414601890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of adj is in its staging buffer at every point (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole of x is in its staging buffer at every point: fetched at the first, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
end

/-! ## The two branch conditions -/

/-- The first branch (zero the accumulator) is taken when the tile coordinate is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The second branch (copy the accumulator out) is taken when the tile coordinate is 7. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from the last tile the output window is idle: nothing is stored into it, -/
theorem idle1_2 : ∀ t : Fin cfg1.N, ¬isLast (grid1.coords t) → cfg1.idle 2 (grid1.coords t) = true := by decide +kernel
/-- and it is not written back there. -/
theorem noFlush1_2 : ∀ t : Fin cfg1.N, ¬isLast (grid1.coords t) → (cfg1.win 2).flush t = false := by decide +kernel
/-- At the last tile it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev accM : Memref sig .tc .vmem S1024x128 .f32 := Memref.whole cc1_scratch0
/-- The views through which the output block's and the accumulator's contents are stated. -/
abbrev outV : View sig .tc .vmem S1024x128 .f32 := (Memref.whole cc1_stg2_0 : Memref sig .tc .vmem S1024x128 .f32).view
abbrev accV : View sig .tc .vmem S1024x128 .f32 := accM.view

/-- A scoped buffer of the other region, at some contents. -/
abbrev someBuf (c : Dev nD) (b : Ref sig .tc) : sProp 𝕄 :=
  iprop(∃ f : Buf (Elt F) ((c : Thread nD τ).loc b), ((c : Thread nD τ).loc b) ↦{fullShare} f)

/-- The class invariant of region 1 opened: the other region's five staging buffers at some contents, the accumulator
    owned at some contents, the generator register at some state. -/
theorem classInv1_eq (c : Dev nD) :
    (Pipeline.ΦA spec1 c : sProp 𝕄)
      = iprop(iprop(someBuf c cc0_stg0_0 ∗ someBuf c cc0_stg0_1 ∗ someBuf c cc0_stg1_0 ∗ someBuf c cc0_stg2_0 ∗ someBuf c cc0_stg2_1
          ∗ (∃ d, owns (c : Thread nD τ) accM fullShare d)) ∗ (∃ r, prngReg c r)) := by
  unfold Pipeline.ΦA; rw [scopedRest1_eq]; simp only [accM, owns_whole]; try rfl

end Cert.KernelIdeal.Fr

end
-- ==== Proof.KiR1Runs.lean ====
/-
  Region 1 — the body's run in each of its three control cases: the first tile (the accumulator is zeroed, then the
  tile's product is added; the output block is not touched), a middle tile (the product is added to what the previous
  tile left), the last tile (the same, and the accumulator is copied to the output block). In each case the run states
  which pieces end up written in the accumulator, and in the last case in the output block.
-/
import proofs.«138268_j53240414601890_2_alg».proof.Proof.Gen.KernelIdeal.Launch
import proofs.«138268_j53240414601890_2_alg».proof.Proof.Gen.KernelIdeal.Skeleton
import proofs.«138268_j53240414601890_2_alg».proof.Proof.Gen.KernelIdeal.Points
import proofs.«138268_j53240414601890_2_alg».proof.Proof.KiR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST TILE. On whole staging memrefs — the inputs at their contents, the output block at contents handed back
    untouched, the accumulator at anything — the body runs to the continuation with the inputs as they were and the
    accumulator with its pieces written. -/
noncomputable def aggRunFirst (c : Dev nD) (i : grid1.Coords) (arg2 : Memref sig .tc .vmem S1024x2048 .f32) (harg2 : arg2.IsWhole)
    (arg3 : Memref sig .tc .vmem S16384x128 .bf16) (harg3 : arg3.IsWhole) (arg4 : Memref sig .tc .vmem S1024x128 .f32) (harg4 : arg4.IsWhole)
    (arg5 : Memref sig .tc .vmem S1024x128 .f32) (harg5 : arg5.IsWhole) (hc0 : isFirst i) (hc1 : ¬isLast i)
    (x0 : Vec F S1024x2048 .f32) (x1 : Vec F S16384x128 .bf16) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE TILE. The accumulator is handed in at the contents xs the previous tile left. -/
noncomputable def aggRunMid (c : Dev nD) (i : grid1.Coords) (arg2 : Memref sig .tc .vmem S1024x2048 .f32) (harg2 : arg2.IsWhole)
    (arg3 : Memref sig .tc .vmem S16384x128 .bf16) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : ¬isLast i)
    (x0 : Vec F S1024x2048 .f32) (x1 : Vec F S16384x128 .bf16) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST TILE. The accumulator is handed in at xs, the output block at anything; both end with their pieces written. -/
noncomputable def aggRunLast (c : Dev nD) (i : grid1.Coords) (arg2 : Memref sig .tc .vmem S1024x2048 .f32) (harg2 : arg2.IsWhole)
    (arg3 : Memref sig .tc .vmem S16384x128 .bf16) (harg3 : arg3.IsWhole) (arg4 : Memref sig .tc .vmem S1024x128 .f32) (harg4 : arg4.IsWhole)
    (arg5 : Memref sig .tc .vmem S1024x128 .f32) (harg5 : arg5.IsWhole) (hc0 : ¬isFirst i) (hc1 : isLast i)
    (x0 : Vec F S1024x2048 .f32) (x1 : Vec F S16384x128 .bf16) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Fr

end
-- ==== Proof.KiR1.lean ====
/-
  Region 1 — what the accumulator and the output block hold after each grid point, the region's invariant (it names
  the accumulator's contents from the second point on), the pipeline's proof data, and the body obligation at every
  point: by cases on the tile coordinate (first, middle, last), each closed by that case's run of the body.
-/
import proofs.«138268_j53240414601890_2_alg».proof.Proof.Gen.KernelIdeal.Launch
import proofs.«138268_j53240414601890_2_alg».proof.Proof.Gen.KernelIdeal.Skeleton
import proofs.«138268_j53240414601890_2_alg».proof.Proof.Gen.KernelIdeal.Points
import proofs.«138268_j53240414601890_2_alg».proof.Proof.KiR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- First tile at point t: the accumulator's pieces cover it, -/
theorem accCoverFirst (c : Dev nD) (t : Fin cfg1.N) (hc0 : isFirst (grid1.coords t)) (hc1 : ¬isLast (grid1.coords t))
    (x0 : Vec F S1024x2048 .f32) (x1 : Vec F S16384x128 .bf16) (y : S1024x128.Idx) :
    ∃ pc ∈ (aggRunFirst c (grid1.coords t) (ms1_0 t) (hs1_0 t) (ms1_1 t) (hs1_1 t) (ms1_2 t) (hs1_2 t) accM (Memref.isWhole_whole _) hc0 hc1 x0 x1).1, y ∈ pc.1.set :=
  View.cover_of_tiledL (aggRunFirst c (grid1.coords t) (ms1_0 t) (hs1_0 t) (ms1_1 t) (hs1_1 t) (ms1_2 t) (hs1_2 t) accM (Memref.isWhole_whole _) hc0 hc1 x0 x1).1 S1024x128.size (by sl_kernel_rfl) y
/-- and what it then holds. -/
def accFirstAt (c : Dev nD) (t : Fin cfg1.N) (hc0 : isFirst (grid1.coords t)) (hc1 : ¬isLast (grid1.coords t))
    (x0 : Vec F S1024x2048 .f32) (x1 : Vec F S16384x128 .bf16) : Vec F S1024x128 .f32 :=
  accV.read (Elt F) (accV.writes (Elt F) accV.junk (aggRunFirst c (grid1.coords t) (ms1_0 t) (hs1_0 t) (ms1_1 t) (hs1_1 t) (ms1_2 t) (hs1_2 t) accM (Memref.isWhole_whole _) hc0 hc1 x0 x1).1)

/-- Middle tile at point t, over what the previous point left (xs). -/
theorem accCoverMid (c : Dev nD) (t : Fin cfg1.N) (hc0 : ¬isFirst (grid1.coords t)) (hc1 : ¬isLast (grid1.coords t))
    (x0 : Vec F S1024x2048 .f32) (x1 : Vec F S16384x128 .bf16) (xs : Vec F S1024x128 .f32) (y : S1024x128.Idx) :
    ∃ pc ∈ (aggRunMid c (grid1.coords t) (ms1_0 t) (hs1_0 t) (ms1_1 t) (hs1_1 t) (ms1_2 t) (hs1_2 t) accM (Memref.isWhole_whole _) hc0 hc1 x0 x1 xs).1, y ∈ pc.1.set :=
  View.cover_of_tiledL (aggRunMid c (grid1.coords t) (ms1_0 t) (hs1_0 t) (ms1_1 t) (hs1_1 t) (ms1_2 t) (hs1_2 t) accM (Memref.isWhole_whole _) hc0 hc1 x0 x1 xs).1 S1024x128.size (by sl_kernel_rfl) y
def accMidAt (c : Dev nD) (t : Fin cfg1.N) (hc0 : ¬isFirst (grid1.coords t)) (hc1 : ¬isLast (grid1.coords t))
    (x0 : Vec F S1024x2048 .f32) (x1 : Vec F S16384x128 .bf16) (xs : Vec F S1024x128 .f32) : Vec F S1024x128 .f32 :=
  accV.read (Elt F) (accV.writes (Elt F) accV.junk (aggRunMid c (grid1.coords t) (ms1_0 t) (hs1_0 t) (ms1_1 t) (hs1_1 t) (ms1_2 t) (hs1_2 t) accM (Memref.isWhole_whole _) hc0 hc1 x0 x1 xs).1)

/-- Last tile at point t: the output block's pieces cover it, -/
theorem outCoverLast (c : Dev nD) (t : Fin cfg1.N) (hc0 : ¬isFirst (grid1.coords t)) (hc1 : isLast (grid1.coords t))
    (x0 : Vec F S1024x2048 .f32) (x1 : Vec F S16384x128 .bf16) (xs : Vec F S1024x128 .f32) (y : S1024x128.Idx) :
    ∃ pc ∈ (aggRunLast c (grid1.coords t) (ms1_0 t) (hs1_0 t) (ms1_1 t) (hs1_1 t) (ms1_2 t) (hs1_2 t) accM (Memref.isWhole_whole _) hc0 hc1 x0 x1 xs).1, y ∈ pc.1.set :=
  View.cover_of_tiledL (aggRunLast c (grid1.coords t) (ms1_0 t) (hs1_0 t) (ms1_1 t) (hs1_1 t) (ms1_2 t) (hs1_2 t) accM (Memref.isWhole_whole _) hc0 hc1 x0 x1 xs).1 S1024x128.size (by sl_kernel_rfl) y
def outLastAt (c : Dev nD) (t : Fin cfg1.N) (hc0 : ¬isFirst (grid1.coords t)) (hc1 : isLast (grid1.coords t))
    (x0 : Vec F S1024x2048 .f32) (x1 : Vec F S16384x128 .bf16) (xs : Vec F S1024x128 .f32) : Vec F S1024x128 .f32 :=
  outV.read (Elt F) (outV.writes (Elt F) outV.junk (aggRunLast c (grid1.coords t) (ms1_0 t) (hs1_0 t) (ms1_1 t) (hs1_1 t) (ms1_2 t) (hs1_2 t) accM (Memref.isWhole_whole _) hc0 hc1 x0 x1 xs).1)
/-- and so do the accumulator's. -/
theorem accCoverLast (c : Dev nD) (t : Fin cfg1.N) (hc0 : ¬isFirst (grid1.coords t)) (hc1 : isLast (grid1.coords t))
    (x0 : Vec F S1024x2048 .f32) (x1 : Vec F S16384x128 .bf16) (xs : Vec F S1024x128 .f32) (y : S1024x128.Idx) :
    ∃ pc ∈ (aggRunLast c (grid1.coords t) (ms1_0 t) (hs1_0 t) (ms1_1 t) (hs1_1 t) (ms1_2 t) (hs1_2 t) accM (Memref.isWhole_whole _) hc0 hc1 x0 x1 xs).2.1, y ∈ pc.1.set :=
  View.cover_of_tiledL (aggRunLast c (grid1.coords t) (ms1_0 t) (hs1_0 t) (ms1_1 t) (hs1_1 t) (ms1_2 t) (hs1_2 t) accM (Memref.isWhole_whole _) hc0 hc1 x0 x1 xs).2.1 S1024x128.size (by sl_kernel_rfl) y
def accLastAt (c : Dev nD) (t : Fin cfg1.N) (hc0 : ¬isFirst (grid1.coords t)) (hc1 : isLast (grid1.coords t))
    (x0 : Vec F S1024x2048 .f32) (x1 : Vec F S16384x128 .bf16) (xs : Vec F S1024x128 .f32) : Vec F S1024x128 .f32 :=
  accV.read (Elt F) (accV.writes (Elt F) accV.junk (aggRunLast c (grid1.coords t) (ms1_0 t) (hs1_0 t) (ms1_1 t) (hs1_1 t) (ms1_2 t) (hs1_2 t) accM (Memref.isWhole_whole _) hc0 hc1 x0 x1 xs).2.1)

/-- Where the output block is idle nothing consults its contents: a placeholder. -/
def outIdle : Vec F S1024x128 .f32 := outV.read (Elt F) (outV.writes (Elt F) outV.junk [])

/-! ## The accumulation, point by point -/

/-- What the output block's staging buffer (first component) and the accumulator (second) hold after the body at
    position n: the case the tile coordinate selects, run on the point's blocks, over what position n − 1 left in the
    accumulator. -/
def stAt1 (c : Dev nD) : (n : ℕ) → n < cfg1.N → Vec F S1024x128 .f32 × Vec F S1024x128 .f32
  | 0, hn => (outIdle, accFirstAt c ⟨0, hn⟩ ((isFirst_iff ⟨0, hn⟩).mpr (Nat.zero_mod _)) (fun h => (fun h' => by (try dsimp only at h'); omega) ((isLast_iff ⟨0, hn⟩).mp h))
      (blk1 V c 0 ⟨0, hn⟩) (blk1 V c 1 ⟨0, hn⟩))
  | n + 1, hn =>
    if h0 : (n + 1) % 8 = 0 then
      (outIdle, accFirstAt c ⟨n + 1, hn⟩ ((isFirst_iff ⟨n + 1, hn⟩).mpr h0) (fun h => (fun h' => by (try dsimp only at h'); omega) ((isLast_iff ⟨n + 1, hn⟩).mp h))
        (blk1 V c 0 ⟨n + 1, hn⟩) (blk1 V c 1 ⟨n + 1, hn⟩))
    else if h1 : (n + 1) % 8 = 7 then
      (outLastAt c ⟨n + 1, hn⟩ (fun h => h0 ((isFirst_iff ⟨n + 1, hn⟩).mp h)) ((isLast_iff ⟨n + 1, hn⟩).mpr h1)
          (blk1 V c 0 ⟨n + 1, hn⟩) (blk1 V c 1 ⟨n + 1, hn⟩) (stAt1 c n (Nat.lt_of_succ_lt hn)).2,
        accLastAt c ⟨n + 1, hn⟩ (fun h => h0 ((isFirst_iff ⟨n + 1, hn⟩).mp h)) ((isLast_iff ⟨n + 1, hn⟩).mpr h1)
          (blk1 V c 0 ⟨n + 1, hn⟩) (blk1 V c 1 ⟨n + 1, hn⟩) (stAt1 c n (Nat.lt_of_succ_lt hn)).2)
    else
      (outIdle, accMidAt c ⟨n + 1, hn⟩ (fun h => h0 ((isFirst_iff ⟨n + 1, hn⟩).mp h)) (fun h => h1 ((isLast_iff ⟨n + 1, hn⟩).mp h))
        (blk1 V c 0 ⟨n + 1, hn⟩) (blk1 V c 1 ⟨n + 1, hn⟩) (stAt1 c n (Nat.lt_of_succ_lt hn)).2)

theorem stAt1_first (c : Dev nD) (t : Fin cfg1.N) (h0 : t.val % 8 = 0) (h1 : ¬t.val % 8 = 7) :
    stAt1 V c t.val t.isLt = (outIdle, accFirstAt c t ((isFirst_iff t).mpr h0) (fun h => h1 ((isLast_iff t).mp h)) (blk1 V c 0 t) (blk1 V c 1 t)) := by
  obtain ⟨n, hn⟩ := t
  cases n with
  | zero => exact rfl
  | succ n => exact (dif_pos h0).trans rfl

theorem stAt1_mid (c : Dev nD) (t : Fin cfg1.N) (h0 : ¬t.val % 8 = 0) (h1 : ¬t.val % 8 = 7) :
    stAt1 V c t.val t.isLt = (outIdle, accMidAt c t (fun h => h0 ((isFirst_iff t).mp h)) (fun h => h1 ((isLast_iff t).mp h)) (blk1 V c 0 t) (blk1 V c 1 t)
      (stAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem stAt1_last (c : Dev nD) (t : Fin cfg1.N) (h0 : ¬t.val % 8 = 0) (h1 : t.val % 8 = 7) :
    stAt1 V c t.val t.isLt = (outLastAt c t (fun h => h0 ((isFirst_iff t).mp h)) ((isLast_iff t).mpr h1) (blk1 V c 0 t) (blk1 V c 1 t)
        (stAt1 V c (t.val - 1) (Nat.lt_of_le_of_lt (Nat.sub_le _ _) t.isLt)).2,
      accLastAt c t (fun h => h0 ((isFirst_iff t).mp h)) ((isLast_iff t).mpr h1) (blk1 V c 0 t) (blk1 V c 1 t)
        (stAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position n: at n = 0 the class invariant (the accumulator at anything); afterwards the other region's
    buffers at anything, the accumulator at what position n − 1 left in it, the generator register at some state. -/
def accInv (c : Dev nD) : (n : ℕ) → n ≤ cfg1.N → sProp 𝕄
  | 0, _ => Pipeline.ΦA spec1 c
  | n + 1, hn => iprop(iprop(someBuf c cc0_stg0_0 ∗ someBuf c cc0_stg0_1 ∗ someBuf c cc0_stg1_0 ∗ someBuf c cc0_stg2_0 ∗ someBuf c cc0_stg2_1
      ∗ owns (c : Thread nD τ) accM fullShare ((stAt1 V c n hn).2)) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(iprop(someBuf c cc0_stg0_0 ∗ someBuf c cc0_stg0_1 ∗ someBuf c cc0_stg1_0 ∗ someBuf c cc0_stg2_0 ∗ someBuf c cc0_stg2_1
      ∗ owns (c : Thread nD τ) accM fullShare ((stAt1 V c n hn).2)) ∗ (∃ r, prngReg c r)) := rfl

theorem accInv_pos (c : Dev nD) (n : ℕ) (h : n ≤ cfg1.N) (hz : n ≠ 0) :
    accInv V c n h = iprop(iprop(someBuf c cc0_stg0_0 ∗ someBuf c cc0_stg0_1 ∗ someBuf c cc0_stg1_0 ∗ someBuf c cc0_stg2_0 ∗ someBuf c cc0_stg2_1
      ∗ owns (c : Thread nD τ) accM fullShare ((stAt1 V c (n - 1) (by omega)).2)) ∗ (∃ r, prngReg c r)) := by
  cases n with
  | zero => exact absurd rfl hz
  | succ n => rfl

/-! ## The proof data -/

/-- The proof data of region 1 on core c: the arrays as the region finds them; after the body at point t each input's
    buffer at its block and the output's at stAt1's first component; the invariant accInv; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stAt1 V c t.val t.isLt).1
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv_castSucc (c : Dev nD) (t : Fin cfg1.N) :
    (dat1 V c).Φ t.castSucc = accInv V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (stAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the tile coordinate says which case the point is in;
    the invariant hands the body the accumulator at what the point before left (at anything before the first point)
    and takes it back at this point's contents; the output block is handed back untouched except at the last tile;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 128 := lt_of_lt_of_eq t.isLt (show cfg1.N = 128 from N_1)
  by_cases h0 : t.val % 8 = 0
  · have h1 : ¬t.val % 8 = 7 := by omega
    rw [Dat.leavesExact_idle (dat1 V c) 2 t (idle1_2 t (fun h => h1 ((isLast_iff t).mp h))) (noFlush1_2 t (fun h => h1 ((isLast_iff t).mp h)))]
    rw [stAt1_first V c t h0 h1]
    unfold accFirstAt; (try dsimp only)
    by_cases hz : t.val = 0
    · rw [inv_castSucc V c t, accInv_zero V c _ _ hz, classInv1_eq]
      iintro ⟨⟨⟨HA, HB, HC, HD, HE, HS⟩, Hg⟩, Ho, ⟨%d0, H0⟩, ⟨%d1, H1⟩, ⟨%d2, H2⟩⟩
      iapply ((aggRunFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverFirst c t _ _ _ _)
        iexact Hg
      isplitl [Ho]; · iexact Ho
      isplitl [H0]; · iexact H0
      isplitl [H1]; · iexact H1
      iexists _; iexact H2
    · rw [inv_castSucc V c t, accInv_pos V c _ _ hz]
      iintro ⟨⟨⟨HA, HB, HC, HD, HE, HS⟩, Hg⟩, Ho, ⟨%d0, H0⟩, ⟨%d1, H1⟩, ⟨%d2, H2⟩⟩
      iapply ((aggRunFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverFirst c t _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [live1_2 t ((isLast_iff t).mpr h1)], after1_2]
      rw [stAt1_last V c t h0 h1]
      unfold outLastAt accLastAt; (try dsimp only)
      rw [inv_castSucc V c t, accInv_pos V c _ _ hz]
      iintro ⟨⟨⟨HA, HB, HC, HD, HE, HS⟩, Hg⟩, Ho, ⟨%d0, H0⟩, ⟨%d1, H1⟩, ⟨%d2, H2⟩⟩
      iapply ((aggRunLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverLast c t _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c t _ _ _ _ _)
    · rw [Dat.leavesExact_idle (dat1 V c) 2 t (idle1_2 t (fun h => h1 ((isLast_iff t).mp h))) (noFlush1_2 t (fun h => h1 ((isLast_iff t).mp h)))]
      rw [stAt1_mid V c t h0 h1]
      unfold accMidAt; (try dsimp only)
      rw [inv_castSucc V c t, accInv_pos V c _ _ hz]
      iintro ⟨⟨⟨HA, HB, HC, HD, HE, HS⟩, Hg⟩, Ho, ⟨%d0, H0⟩, ⟨%d1, H1⟩, ⟨%d2, H2⟩⟩
      iapply ((aggRunMid c (grid1.coords t) _ _ _ _ _ _ _ _ (fun h => h0 ((isFirst_iff t).mp h)) (fun h => h1 ((isLast_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HA HB HC HD HE HS Hg]
      · isplitl [HA HB HC HD HE HS]
        · isplitl [HA]; · iexact HA
          isplitl [HB]; · iexact HB
          isplitl [HC]; · iexact HC
          isplitl [HD]; · iexact HD
          isplitl [HE]; · iexact HE
          unfold owns; iexists _; isplitr
          swap; · iexact HS
          ipureintro; exact View.read_writes_of_cover _ _ _ _ _ (accCoverMid c t _ _ _ _ _)
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's contents forgotten. -/
theorem inv_forget (c : Dev nD) (t : Fin (cfg1.N + 1)) (ht : t.val ≠ 0) : (dat1 V c).Φ t ⊢ Pipeline.ΦA spec1 c := by
  rw [show (dat1 V c).Φ t = accInv V c t.val (Nat.le_of_lt_succ t.isLt) from rfl, accInv_pos V c _ _ ht, classInv1_eq]
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

theorem inv_last (c : Dev nD) : (dat1 V c).Φ (Fin.last cfg1.N) ⊢ Pipeline.ΦA spec1 c :=
  inv_forget V c _ (by rw [Fin.val_last]; have : cfg1.N = 128 := N_1; omega)

theorem inv_first (c : Dev nD) : (dat1 V c).Φ 0 = Pipeline.ΦA spec1 c := rfl
end

end Cert.KernelIdeal.Fr

end
-- ==== Proof.KiRun.lean ====
/-
  The run of the whole program: region 0, then region 1. The buffer contents at the two boundaries — at launch; after
  region 0 (its arrays at what its write-backs leave, everything else as before); after region 1 likewise — each
  region as a segment entered from one boundary's contents and left at the next, and the run: every weakly fair
  execution terminates and every unscoped buffer ends at the last boundary's contents. The three argument arrays walk
  back through the boundaries to their launch contents, which is the frame claim.
-/
import proofs.«138268_j53240414601890_2_alg».proof.Proof.Gen.KernelIdeal.Launch
import proofs.«138268_j53240414601890_2_alg».proof.Proof.Gen.KernelIdeal.Skeleton
import proofs.«138268_j53240414601890_2_alg».proof.Proof.Gen.KernelIdeal.Points
import proofs.«138268_j53240414601890_2_alg».proof.Proof.KiR0
import proofs.«138268_j53240414601890_2_alg».proof.Proof.KiR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0 (region 1's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1 (the end). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

/-- The inputs: region 0 reads them through an input window, region 1 does not touch them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The weights: the same. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- What region 1 finds in adj is its launch contents: region 0 does not touch it. -/
theorem V1_main_arg1 (c : Dev nD) : V1 m ρ c main_arg1 = m ((c : Thread nD τ).loc main_arg1) :=
  (W1_of_ne m ρ c main_arg1 (by decide)).trans rfl
/-- adj: region 1 reads it through an input window. -/
theorem W2_main_arg1 (c : Dev nD) : W2 m ρ c (Proc.devRef .tc main_arg1) = m ((c : Thread nD τ).loc main_arg1) :=
  calc W2 m ρ c (Proc.devRef .tc main_arg1)
    _ = V1 m ρ c main_arg1 := (W2_arr m ρ c 0).trans (((dat1 (V1 m ρ) c).arrAt_in 0 rfl _).trans (A_eq1 (V1 m ρ) c 0))
    _ = m ((c : Thread nD τ).loc main_arg1) := V1_main_arg1 m ρ c
/-- The result array ends at what region 1's write-backs leave, -/
theorem W2_main_v1 (c : Dev nD) : W2 m ρ c (Proc.devRef .tc main_v1) = (dat1 (V1 m ρ) c).arrAt 2 cfg1.N :=
  W2_arr m ρ c 2
/-- computed from x as region 0's write-backs left it. -/
theorem V1_main_v0 (c : Dev nD) : V1 m ρ c main_v0 = (dat0 (V0 m ρ) c).arrAt 2 cfg0.N :=
  W1_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- REGION 0 as a segment: entered from every unscoped buffer at the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at W1, left at W2. Its invariant tracks the
    accumulator: it is the class invariant before the first point, and gives the class invariant back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from inv_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN. From any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- THE RUN WITH THE RESULT NAMED: the result array ends at what region 1's write-backs leave of the launch contents
    of adj and of x as region 0's write-backs left it; the arguments end as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.KernelIdeal.Fr

end
-- ==== Proof.Spec.lean ====
/-
  The function both programs compute, entry by entry, on the extended reals.

  From an input `inp` (16384 × 512), an adjacency `adj` (16384 × 16384) and a weight `w` (512 × 128):
    proj inp w (r, q)   = ∑ j, inp(r, j) · w(j, q)            the projection  inp · w
    G inp adj w (p, q)  = ∑ k, adj(p, k) · proj inp w (k, q)   the aggregation adj · (inp · w)
  Both sums are finite sums in the commutative monoid of extended reals under addition; nothing here asks the
  entries to be finite.
-/
import Idealize.ShloMosaic.PureOps.Ideal
import Idealize.ShloMosaic.Lib.ValueIdx

noncomputable section

namespace Cert.Val

open Idealize.ShloMosaic Idealize.ShloMosaic.ValueIdx
open scoped BigOperators

/-- The projection `inp · w` at entry `(r, q)`: row `r` of the input against column `q` of the weight. -/
def proj (inp : (⟨2, ![16384, 512]⟩ : Shape).Idx → EReal) (w : (⟨2, ![512, 128]⟩ : Shape).Idx → EReal)
    (r : Fin 16384) (q : Fin 128) : EReal :=
  ∑ j : Fin 512, inp (ix2 r j) * w (ix2 j q)

/-- The aggregation `adj · (inp · w)` at entry `(p, q)`: row `p` of the adjacency against column `q` of the
    projection. -/
def G (inp : (⟨2, ![16384, 512]⟩ : Shape).Idx → EReal) (adj : (⟨2, ![16384, 16384]⟩ : Shape).Idx → EReal)
    (w : (⟨2, ![512, 128]⟩ : Shape).Idx → EReal) (p : Fin 16384) (q : Fin 128) : EReal :=
  ∑ k : Fin 16384, adj (ix2 p k) * proj inp w k q

end Cert.Val

end
-- ==== Proof.RefSide.lean ====
import proofs.«138268_j53240414601890_2_alg».proof.Defs
import proofs.«138268_j53240414601890_2_alg».proof.Proof.Gen.ReferenceIdeal.Read
import proofs.«138268_j53240414601890_2_alg».proof.Proof.Gen.Pre_finite_inputs
import proofs.«138268_j53240414601890_2_alg».proof.Proof.Spec

/-!
  The reference computes `G`.

  The reference is two general dot products on the host: `x = inp · w`, then `out = adj · x`.  Read at entry (p, q)
  on the extended reals the second is `∑ k, adj(p, k) · x(k, q)` and the first `x(k, q) = ∑ j, inp(k, j) · w(j, q)`:
  exactly `G inp adj w p q`, term by term, with no rearrangement of either sum.  Hence every run of the reference ends
  with its result equal to `G` of its arguments and its arguments unchanged.
-/

noncomputable section

namespace Cert.Val

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-- The reference's result, as a function of its three arguments, is `G` at every entry. -/
theorem ref_is_G (x0 : (⟨S16384x512, .f32⟩ : BufTy).Contents (Elt Ideal))
    (x1 : (⟨S16384x16384, .f32⟩ : BufTy).Contents (Elt Ideal)) (x2 : (⟨S512x128, .f32⟩ : BufTy).Contents (Elt Ideal)) :
    Read.val_main_v1 (F := Ideal) x0 x1 x2 = fun i => G x0 x1 x2 (i 0) (i 1) := by
  funext i
  show _ = ∑ k : Fin 16384, x1 (ix2 (i 0 : Fin 16384) k) * proj x0 x2 k (i 1)
  rw [Read.val_main_v1_apply]
  refine Finset.sum_congr rfl fun k _ => ?_
  have e1 : Read.lidx_main_v1 i k = ix2 (i 0 : Fin 16384) k :=
    funext fun a => Fin.ext (by match a with | ⟨0, _⟩ => rfl | ⟨1, _⟩ => rfl)
  rw [Read.val_main_v0_apply, e1]
  refine congrArg (x1 (ix2 (i 0 : Fin 16384) k) * ·) ?_
  show _ = ∑ j : Fin 512, x0 (ix2 k j) * x2 (ix2 j (i 1 : Fin 128))
  refine Finset.sum_congr rfl fun j _ => ?_
  have e2 : Read.lidx_main_v0 (Read.ridx_main_v1 i k) j = ix2 k j :=
    funext fun a => Fin.ext (by match a with | ⟨0, _⟩ => rfl | ⟨1, _⟩ => rfl)
  have e3 : Read.ridx_main_v0 (Read.ridx_main_v1 i k) j = ix2 j (i 1 : Fin 128) :=
    funext fun a => Fin.ext (by match a with | ⟨0, _⟩ => rfl | ⟨1, _⟩ => rfl)
  rw [e2, e3]
  rfl

/-- Every weakly fair run of the reference terminates with its result equal to `G` of the arguments' initial
    contents, entry by entry, and the three arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v1)
          = (fun i => G (m' ((c.tc : Thread nD τ).loc main_arg0)) (m' ((c.tc : Thread nD τ).loc main_arg1))
              (m' ((c.tc : Thread nD τ).loc main_arg2)) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun _ h c => ⟨((h c).1.trans (Read.val_main_v1_eq _ _ _)).trans (ref_is_G _ _ _), (h c).2⟩)
    (Value.run (F := Ideal) m' ρ')

/-- The reference runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run defs _ _).mono (fun _ h c => (h c).2) (Value.run (F := Ideal) m ρ)

end Cert.Val

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.Pay.lean ====
/-
  The three values the kernel's two regions store, read at one entry, on the extended reals.

  Region 0 stores a block of the projection: a 2048 × 512 block of the input times the 512 × 128 weight, a matrix
  product into a zero accumulator; the narrowing format changes around it are the identity on extended reals.
  Region 1 first stores the zero block, then at every column tile stores the running block plus the product of a
  1024 × 2048 tile of the adjacency with a 2048 × 128 block of the projection.
  Each is read at entry (p, q): the product as the sum over the contracted coordinate of the two factors.
-/
import proofs.«138268_j53240414601890_2_alg».proof.Proof.Gen.KernelIdeal.Skeleton
import proofs.«138268_j53240414601890_2_alg».proof.Proof.LibDense
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx
open scoped BigOperators

/-- The projection block at entry `(p, q)`: row `p` of the input block against column `q` of the weight,
    `∑ j, x(p, j) · w(j, q)`. -/
theorem pay_proj (x : Vec Ideal Cert.KernelIdeal.S2048x512 .f32) (w : Vec Ideal Cert.KernelIdeal.S512x128 .f32)
    (p : Fin 2048) (q : Fin 128) :
    Cert.KernelIdeal.Gen.k0_pay1 (F := Ideal) x w (ix2 p q) = ∑ j : Fin 512, x (ix2 p j) * w (ix2 j q) := by
  unfold Cert.KernelIdeal.Gen.k0_pay1
  rw [truncf_apply]
  exact Cert.Lib.Dense.matmul_zero_at Cert.KernelIdeal.dot_S2048x512_S512x128_S2048x128_1_0_0_1_n_n rfl rfl rfl rfl rfl rfl _ _ p q

/-- The block region 1 starts from is zero at every entry. -/
theorem pay_zero (p : Fin 1024) (q : Fin 128) : Cert.KernelIdeal.Gen.k1_pay1 (F := Ideal) (ix2 p q) = 0 := by
  unfold Cert.KernelIdeal.Gen.k1_pay1
  rw [shapeCast_self, broadcast_apply]
  exact Ideal.ofBits_zero_f32

/-- One accumulation step at entry `(p, q)`: the running value plus row `p` of the adjacency tile against column `q`
    of the projection block, `acc(p, q) + ∑ kk, a(p, kk) · xb(kk, q)`. -/
theorem pay_acc (a : Vec Ideal Cert.KernelIdeal.S1024x2048 .f32) (xb : Vec Ideal Cert.KernelIdeal.S2048x128 .bf16)
    (acc : Vec Ideal Cert.KernelIdeal.S1024x128 .f32) (p : Fin 1024) (q : Fin 128) :
    Cert.KernelIdeal.Gen.k1_pay2 (F := Ideal) a xb acc (ix2 p q)
      = acc (ix2 p q) + ∑ kk : Fin 2048, a (ix2 p kk) * xb (ix2 kk q) := by
  unfold Cert.KernelIdeal.Gen.k1_pay2
  rw [shapeCast_self, addf_apply, shapeCast_self]
  exact congrArg (acc (ix2 p q) + ·)
    (Cert.Lib.Dense.matmul_zero_at Cert.KernelIdeal.dot_S1024x2048_S2048x128_S1024x128_1_0_0_1_n_n rfl rfl rfl rfl rfl rfl _ _ p q)

end Cert.Val

end
-- ==== Proof.ValR0.lean ====
/-
  What region 0 leaves in the projection's array, as one function of the arrays the region finds.

  The region's grid has 8 points. At point t the body stores, into block t of the output (rows 2048·t … 2048·t + 2047,
  all 128 columns), the product of block t of the input (the same rows, all 512 columns) with the whole weight.
  Entry (p, q) of that block is ∑ j, inp(2048·t + p, j) · w(j, q), which is entry (2048·t + p, q) of the projection
  inp · w; the 8 blocks tile the 16384 rows, so after the last point the array holds the projection at every entry.
-/
import proofs.«138268_j53240414601890_2_alg».proof.Proof.KiR0
import proofs.«138268_j53240414601890_2_alg».proof.Proof.Pay
import proofs.«138268_j53240414601890_2_alg».proof.Proof.Spec
import Idealize.ShloMosaic.Lib.Pipeline.Value

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-- The zero offsets of a whole-block rectangle. -/
theorem zero_off2 : (![0, 0] : Fin 2 → Nat) = fun _ => 0 := funext fun a => by fin_cases a <;> rfl

/-- The block indices at point `t`: the input and the output move down the rows with the point (block `(t, 0)`), the
    weight stays at block `(0, 0)`; and there are 8 points. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 8 :=
  (by decide +kernel : ∀ t : Fin grid0.N, _)

section
variable (V : (c : Dev nD) → (b : Ref sig .tc) → Buf (Elt Ideal) ((c : Thread nD τ).loc b))

/-- The projection `inp · w` of the arrays the region finds, as one array: entry `i` is `proj inp w (i 0) (i 1)`. -/
def projArr (c : Dev nD) : S16384x128.Idx → EReal := fun i => proj (V c main_arg0) (V c main_arg2) (i 0) (i 1)

/-- What point `t` writes back is block `t` of the projection: entry `(p, q)` of the stored product is the sum over
    `j` of the input at `(2048·t + p, j)` times the weight at `(j, q)`. -/
theorem flushed0_eq (c : Dev nD) (t : Fin cfg0.N) :
    (dat0 (F := Ideal) V c).flushed 2 t = ((cfg0.win 2).blk t).view.read (Elt Ideal) (projArr V c) := by
  show (cfg0.win 2).cut (grid0.coords t) ((dat0 V c).after 2 t) = _
  rw [after0_2]
  unfold projOut
  rw [View.canon_unit_zero zero_off2]
  simp only [View.ld_unit_zero (S := S2048x512) zero_off2, View.ld_unit_zero (S := S512x128) zero_off2]
  obtain ⟨e0, e1, e2, e3, e4, e5, e6⟩ := block_index0 t
  funext j
  obtain ⟨p, q, rfl⟩ : ∃ (p : Fin 2048) (q : Fin 128), j = ix2 p q := ⟨j 0, j 1, eq_ix2 j⟩
  have hr : t.val * 2048 + p.val < 16384 := by have := p.isLt; omega
  show k0_pay1 (blk0 V c 0 t) (blk0 V c 1 t) (ix2 p q) = projArr V c (((cfg0.win 2).blk t).view.emb (ix2 p q))
  -- entry (p, q) of the output's block t is entry (2048·t + p, q) of the array
  have eo : ((cfg0.win 2).blk t).view.emb (ix2 p q) = ix2 (⟨t.val * 2048 + p.val, hr⟩ : Fin 16384) q := by
    funext a; apply Fin.ext
    match a with
    | ⟨0, _⟩ => show win0_2.index t (0 : Fin 2) * 2048 + 1 * p.val = t.val * 2048 + p.val; omega
    | ⟨1, _⟩ => show win0_2.index t (1 : Fin 2) * 128 + 1 * q.val = q.val; omega
  rw [eo, pay_proj]
  show _ = proj (V c main_arg0) (V c main_arg2) ⟨t.val * 2048 + p.val, hr⟩ q
  unfold proj
  refine Finset.sum_congr rfl fun j _ => ?_
  -- entry (p, j) of the input's block t is entry (2048·t + p, j) of the input; the weight's one block is the weight
  have ei : ((cfg0.win 0).blk t).view.emb (ix2 p j) = ix2 (⟨t.val * 2048 + p.val, hr⟩ : Fin 16384) j := by
    funext a; apply Fin.ext
    match a with
    | ⟨0, _⟩ => show win0_0.index t (0 : Fin 2) * 2048 + 1 * p.val = t.val * 2048 + p.val; omega
    | ⟨1, _⟩ => show win0_0.index t (1 : Fin 2) * 512 + 1 * j.val = j.val; omega
  have ew : ((cfg0.win 1).blk t).view.emb (ix2 j q) = ix2 j q := by
    funext a; apply Fin.ext
    match a with
    | ⟨0, _⟩ => show win0_1.index t (0 : Fin 2) * 512 + 1 * j.val = j.val; omega
    | ⟨1, _⟩ => show win0_1.index t (1 : Fin 2) * 128 + 1 * q.val = q.val; omega
  refine congrArg₂ (· * ·) ?_ ?_
  · show (V c main_arg0 : S16384x512.Idx → EReal) (((cfg0.win 0).blk t).view.emb (ix2 p j)) = _
    rw [ei]
  · show (V c main_arg2 : S512x128.Idx → EReal) (((cfg0.win 1).blk t).view.emb (ix2 j q)) = _
    rw [ew]

/-- An entry of the array lies in the output's block at point `t` iff each coordinate lies in the block's range. -/
theorem mem_blk0 (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v0).slice (win0_2.rect t)).set ↔ _
  rw [View.set_slice_whole, Rect.mem_set_unit]
  exact Iff.rfl

/-- The 8 blocks tile the array: row `r` lies in the block of point `r / 2048`, and every point writes back. -/
theorem cover0 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : grid0.N = 8 := N_0
  have ht : (i 0).val / 2048 < grid0.N := by omega
  obtain ⟨e0, e1, e2, e3, e4, e5, e6⟩ := block_index0 ⟨(i 0).val / 2048, ht⟩
  refine ⟨⟨(i 0).val / 2048, ht⟩, flush0_2 _, ?_⟩
  rw [mem_blk0]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 128 ≤ (i 1).val
      ∧ (i 1).val < win0_2.index ⟨(i 0).val / 2048, ht⟩ (1 : Fin 2) * 128 + 128
    rw [e5]; omega

/-- After the region's last point the projection's array holds `inp · w` of the arrays the region found, at every entry. -/
theorem x_final (c : Dev nD) :
    (dat0 (F := Ideal) V c).arrAt 2 cfg0.N = fun i => proj (V c main_arg0) (V c main_arg2) (i 0) (i 1) :=
  (dat0 V c).arrAt_eq_of_cover 2 (projArr V c) (fun t _ => flushed0_eq V c t) cover0

end

end Cert.Val

end
-- ==== Proof.ValR1a.lean ====
/-
  Region 1 — what each control case of the body leaves, as the body's arithmetic of the point's blocks: the accumulator
  after a first tile is the tile's product added to zero; after a middle or last tile it is the product added to what the
  previous tile left; at the last tile the output block receives that same sum. The rows of x a tile reads are the 2048
  rows starting at 2048 times the tile coordinate.
-/
import proofs.«138268_j53240414601890_2_alg».proof.Proof.KiR1
import Idealize.ShloMosaic.Lib.Pipeline.Value

set_option maxRecDepth 16384

noncomputable section

namespace Cert.Val

open Cert.KernelIdeal Cert.KernelIdeal.Gen Cert.KernelIdeal.Fr
open Idealize.ShloMosaic Idealize.ShloMosaic.TcCoe Idealize.ShloMosaic.Tactic
open Idealize.SL Idealize.SL.Sem

variable {F : FTy → Type} [FloatOps F]

/-- The rows of x the tile at point t reads. -/
abbrev xRect (t : Fin cfg1.N) : Rect S16384x128 :=
  Rect.unit (s := S16384x128) (k1_off1 (grid1.coords t)) S2048x128.size (k1_off1_inb (grid1.coords t))

theorem zero2 : (![0, 0] : Fin 2 → Nat) = fun _ => 0 := by
  funext a; match a with | ⟨0, _⟩ => rfl | ⟨1, _⟩ => rfl

/-- First tile: the product added to zero. -/
theorem accFirst_eq (c : Dev nD) (t : Fin cfg1.N) (hc0 : isFirst (grid1.coords t)) (hc1 : ¬isLast (grid1.coords t))
    (x0 : Vec F S1024x2048 .f32) (x1 : Vec F S16384x128 .bf16) :
    accFirstAt (F := F) c t hc0 hc1 x0 x1 = k1_pay2 x0 (View.ld x1 (xRect t)) k1_pay1 := by
  unfold accFirstAt
  rw [View.read_writes_eq_canon _ _ _ (accCoverFirst c t hc0 hc1 x0 x1)]
  unfold aggRunFirst
  dsimp only
  sl_unfold_words
  rw [View.canon_cons_unit_zero zero2]
  rw [View.readCov_unit_zero _ zero2]
  simp only [View.readAt_eq_ld, Memref.IsWhole.read_unread, View.ld_unit_zero (S := S1024x2048) zero2]
  rfl

/-- Middle tile: the product added to what the previous tile left. -/
theorem accMid_eq (c : Dev nD) (t : Fin cfg1.N) (hc0 : ¬isFirst (grid1.coords t)) (hc1 : ¬isLast (grid1.coords t))
    (x0 : Vec F S1024x2048 .f32) (x1 : Vec F S16384x128 .bf16) (xs : Vec F S1024x128 .f32) :
    accMidAt (F := F) c t hc0 hc1 x0 x1 xs = k1_pay2 x0 (View.ld x1 (xRect t)) xs := by
  unfold accMidAt
  rw [View.read_writes_eq_canon _ _ _ (accCoverMid c t hc0 hc1 x0 x1 xs)]
  unfold aggRunMid
  dsimp only
  sl_unfold_words
  rw [View.canon_cons_unit_zero zero2]
  simp only [View.readAt_eq_ld, Memref.IsWhole.read_unread, View.ld_unit_zero (S := S1024x2048) zero2, View.ld_unit_zero (S := S1024x128) zero2]
  exact congrArg (k1_pay2 x0 (View.ld x1 (xRect t))) (Memref.IsWhole.read_unread (Memref.isWhole_whole cc1_scratch0) xs)

/-- Last tile: the accumulator ends at the same sum, -/
theorem accLast_eq (c : Dev nD) (t : Fin cfg1.N) (hc0 : ¬isFirst (grid1.coords t)) (hc1 : isLast (grid1.coords t))
    (x0 : Vec F S1024x2048 .f32) (x1 : Vec F S16384x128 .bf16) (xs : Vec F S1024x128 .f32) :
    accLastAt (F := F) c t hc0 hc1 x0 x1 xs = k1_pay2 x0 (View.ld x1 (xRect t)) xs := by
  unfold accLastAt
  rw [View.read_writes_eq_canon _ _ _ (accCoverLast c t hc0 hc1 x0 x1 xs)]
  unfold aggRunLast
  dsimp only
  sl_unfold_words
  rw [View.canon_cons_unit_zero zero2]
  simp only [View.readAt_eq_ld, Memref.IsWhole.read_unread, View.ld_unit_zero (S := S1024x2048) zero2, View.ld_unit_zero (S := S1024x128) zero2]
  exact congrArg (k1_pay2 x0 (View.ld x1 (xRect t))) (Memref.IsWhole.read_unread (Memref.isWhole_whole cc1_scratch0) xs)

/-- and the output block receives it. -/
theorem outLast_eq (c : Dev nD) (t : Fin cfg1.N) (hc0 : ¬isFirst (grid1.coords t)) (hc1 : isLast (grid1.coords t))
    (x0 : Vec F S1024x2048 .f32) (x1 : Vec F S16384x128 .bf16) (xs : Vec F S1024x128 .f32) :
    outLastAt (F := F) c t hc0 hc1 x0 x1 xs = k1_pay2 x0 (View.ld x1 (xRect t)) xs := by
  unfold outLastAt
  rw [View.read_writes_eq_canon _ _ _ (outCoverLast c t hc0 hc1 x0 x1 xs)]
  unfold aggRunLast
  dsimp only
  sl_unfold_words
  rw [View.canon_unit_zero zero2]
  rw [View.readCov_unit_zero _ zero2]
  simp only [View.readAt_eq_ld, Memref.IsWhole.read_unread, View.ld_unit_zero (S := S1024x2048) zero2, View.ld_unit_zero (S := S1024x128) zero2]
  exact congrArg (k1_pay2 x0 (View.ld x1 (xRect t))) (Memref.IsWhole.read_unread (Memref.isWhole_whole cc1_scratch0) xs)

end Cert.Val

end
-- ==== Proof.LibRangeTiles.lean ====
/-
  Two small tools for sums taken tile by tile.

  A sum over T consecutive tiles of width B is the sum over the first T · B natural numbers; it uses only that addition is
  commutative and associative, so it holds in the extended reals.  And a rank-2 array of extended reals extended by zero to
  all pairs of natural numbers, so that row and column arithmetic can be done on plain naturals.
-/
import Idealize.ShloMosaic.Lib.ValueIdx
import Idealize.ShloMosaic.PureOps.Ideal

noncomputable section

namespace BlockSparse

open Idealize.ShloMosaic Idealize.ShloMosaic.ValueIdx
open scoped BigOperators

/-- A sum over `T` consecutive tiles of width `B` is the sum over the first `T · B` naturals. -/
theorem sum_range_tiles {M : Type*} [AddCommMonoid M] (f : ℕ → M) (B : ℕ) :
    ∀ T : ℕ, ∑ s ∈ Finset.range T, ∑ k ∈ Finset.range B, f (s * B + k) = ∑ n ∈ Finset.range (T * B), f n
  | 0 => by simp
  | T + 1 => by
    rw [Finset.sum_range_succ, sum_range_tiles f B T, Nat.succ_mul, Finset.sum_range_add]

/-- A rank-2 array read at a pair of naturals: the entry when both are in range, zero otherwise. -/
def at2 {A B : ℕ} (f : (⟨2, ![A, B]⟩ : Shape).Idx → EReal) (a b : ℕ) : EReal :=
  if h : a < A ∧ b < B then f (ix2 ⟨a, h.1⟩ ⟨b, h.2⟩) else 0

/-- In range it is the entry. -/
theorem at2_of_lt {A B : ℕ} (f : (⟨2, ![A, B]⟩ : Shape).Idx → EReal) {a b : ℕ} (ha : a < A) (hb : b < B) :
    at2 f a b = f (ix2 ⟨a, ha⟩ ⟨b, hb⟩) := dif_pos ⟨ha, hb⟩

end BlockSparse

end
-- ==== Proof.Tiles.lean ====
/-
  A sum over 16384 consecutive naturals taken as 8 tiles of width 2048.

  ∑_{k < 16384} f(k) = ∑_{kt < 8} ∑_{kk < 2048} f(kt · 2048 + kk): addition of extended reals is commutative and
  associative, and the tiles [kt · 2048, (kt + 1) · 2048) partition [0, 16384) in order.
-/
import proofs.«138268_j53240414601890_2_alg».proof.Proof.LibRangeTiles
import Idealize.ShloMosaic.PureOps.Ideal

noncomputable section

namespace Cert.Val

open scoped BigOperators

/-- The sum over all 16384 positions is the sum over the 8 tiles of the sum over the 2048 positions of a tile. -/
theorem sum_tiles (f : ℕ → EReal) :
    ∑ k : Fin 16384, f k.val = ∑ kt ∈ Finset.range 8, ∑ kk : Fin 2048, f (kt * 2048 + kk.val) :=
  calc ∑ k : Fin 16384, f k.val
      = ∑ n ∈ Finset.range (8 * 2048), f n := Fin.sum_univ_eq_sum_range (fun n => f n) 16384
    _ = ∑ kt ∈ Finset.range 8, ∑ kk ∈ Finset.range 2048, f (kt * 2048 + kk) :=
        (BlockSparse.sum_range_tiles f 2048 8).symm
    _ = ∑ kt ∈ Finset.range 8, ∑ kk : Fin 2048, f (kt * 2048 + kk.val) :=
        Finset.sum_congr rfl fun kt _ => (Fin.sum_univ_eq_sum_range (fun kk => f (kt * 2048 + kk)) 2048).symm

end Cert.Val

end
-- ==== Proof.ValR1b.lean ====
/-
  What region 1 leaves in the result's array, as one function of the arrays the region finds.

  The region's grid is 16 × 8: point t works on row block t / 8 (1024 rows) and column tile t % 8 (2048 columns) of the
  adjacency. Along a row block an accumulator starts from zero at tile 0 and at every tile receives the product of the
  adjacency's 1024 × 2048 tile with the 2048 rows of x that face it; at tile 7 the accumulator is copied to the output block.
  At entry (p, q) of row block b, with r = 1024·b + p, the accumulator after tile j therefore holds
      ∑_{kt ≤ j} ∑_{kk < 2048} adj(r, 2048·kt + kk) · x(2048·kt + kk, q),
  by induction on the point; only the order of additions is used (each tile's sum is added on the right of what came
  before, and the first is added to zero). After tile 7 this is the sum over 8 consecutive tiles of width 2048, which is
  the sum over all 16384 columns: entry (r, q) of adj · x. The 16 output blocks tile the rows, so the array ends
  holding adj · x at every entry.
-/
import proofs.«138268_j53240414601890_2_alg».proof.Proof.KiR1
import proofs.«138268_j53240414601890_2_alg».proof.Proof.ValR1a
import proofs.«138268_j53240414601890_2_alg».proof.Proof.Pay
import proofs.«138268_j53240414601890_2_alg».proof.Proof.Spec
import proofs.«138268_j53240414601890_2_alg».proof.Proof.Tiles
import Idealize.ShloMosaic.Lib.Pipeline.Value

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-- The aggregation `adj · x` at entry `(p, q)`: row `p` of the adjacency against column `q` of `x`. -/
def agg (adj : (⟨2, ![16384, 16384]⟩ : Shape).Idx → EReal) (x : (⟨2, ![16384, 128]⟩ : Shape).Idx → EReal)
    (p : Fin 16384) (q : Fin 128) : EReal :=
  ∑ k : Fin 16384, adj (ix2 p k) * x (ix2 k q)

/-- The `k`-th term of entry `(r, q)` of `adj · x`, as a function of a natural number: `adj(r, k) · x(k, q)` for
    `k < 16384`, and zero beyond (never used). -/
def term (adj : (⟨2, ![16384, 16384]⟩ : Shape).Idx → EReal) (x : (⟨2, ![16384, 128]⟩ : Shape).Idx → EReal)
    (r : Fin 16384) (q : Fin 128) (k : ℕ) : EReal :=
  if h : k < 16384 then adj (ix2 r ⟨k, h⟩) * x (ix2 ⟨k, h⟩ q) else 0

/-- Entry `(r, q)` of `adj · x` is the sum of its terms. -/
theorem agg_eq_sum_term (adj : (⟨2, ![16384, 16384]⟩ : Shape).Idx → EReal) (x : (⟨2, ![16384, 128]⟩ : Shape).Idx → EReal)
    (r : Fin 16384) (q : Fin 128) : agg adj x r q = ∑ k : Fin 16384, term adj x r q k.val :=
  Finset.sum_congr rfl fun k _ => by unfold term; rw [dif_pos k.isLt]

/-- The block indices at point `t`: the adjacency's block is `(t / 8, t % 8)`, `x` is one block, the output's block is
    `(t / 8, 0)`; the rows of `x` the body reads start at `2048 · (t % 8)`; and there are 128 points. -/
theorem block_index1 : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ k1_off1 (grid1.coords t) (0 : Fin 2) = t.val % 8 * 2048 ∧ k1_off1 (grid1.coords t) (1 : Fin 2) = 0 ∧ t.val < 128 :=
  (by decide +kernel : ∀ t : Fin grid1.N, _)

section
variable (V : (c : Dev nD) → (b : Ref sig .tc) → Buf (Elt Ideal) ((c : Thread nD τ).loc b))

/-- The adjacency's tile at point `t`, -/
abbrev adjBlk (c : Dev nD) (t : Fin cfg1.N) : Vec Ideal S1024x2048 .f32 := blk1 V c 0 t
/-- and the 2048 rows of `x` that face it. -/
abbrev xTile (c : Dev nD) (t : Fin cfg1.N) : Vec Ideal S2048x128 .bf16 := View.ld (blk1 V c 1 t) (xRect t)

/-- Row `p` of the adjacency's tile against column `q` of the facing rows of `x` is the run of 2048 terms of entry
    `(r, q)` starting at `2048 · (t % 8)`, where `r = 1024 · (t / 8) + p`. -/
theorem tile_sum (c : Dev nD) (t : Fin cfg1.N) (p : Fin 1024) (q : Fin 128) (r : Fin 16384)
    (hr : r.val = t.val / 8 * 1024 + p.val) :
    ∑ kk : Fin 2048, adjBlk V c t (ix2 p kk) * xTile V c t (ix2 kk q)
      = ∑ kk : Fin 2048, term (V c main_arg1) (V c main_v0) r q (t.val % 8 * 2048 + kk.val) := by
  obtain ⟨e0, e1, e2, e3, e4, e5, e6, e7, e8⟩ := block_index1 t
  refine Finset.sum_congr rfl fun kk _ => ?_
  have hk : t.val % 8 * 2048 + kk.val < 16384 := by have := kk.isLt; omega
  unfold term
  rw [dif_pos hk]
  -- entry (p, kk) of the adjacency's tile is entry (r, 2048·(t % 8) + kk) of the adjacency
  have ea : ((cfg1.win 0).blk t).view.emb (ix2 p kk) = ix2 r (⟨t.val % 8 * 2048 + kk.val, hk⟩ : Fin 16384) := by
    funext a; apply Fin.ext
    match a with
    | ⟨0, _⟩ => show win1_0.index t (0 : Fin 2) * 1024 + 1 * p.val = r.val; omega
    | ⟨1, _⟩ => show win1_0.index t (1 : Fin 2) * 2048 + 1 * kk.val = t.val % 8 * 2048 + kk.val; omega
  -- entry (kk, q) of the facing rows is entry (2048·(t % 8) + kk, q) of x
  have ex : ((cfg1.win 1).blk t).view.emb ((xRect t).emb (ix2 kk q))
      = ix2 (⟨t.val % 8 * 2048 + kk.val, hk⟩ : Fin 16384) q := by
    funext a; apply Fin.ext
    match a with
    | ⟨0, _⟩ =>
      show win1_1.index t (0 : Fin 2) * 16384 + 1 * (k1_off1 (grid1.coords t) (0 : Fin 2) + 1 * kk.val)
        = t.val % 8 * 2048 + kk.val
      omega
    | ⟨1, _⟩ =>
      show win1_1.index t (1 : Fin 2) * 128 + 1 * (k1_off1 (grid1.coords t) (1 : Fin 2) + 1 * q.val) = q.val
      omega
  refine congrArg₂ (· * ·) ?_ ?_
  · show (V c main_arg1 : S16384x16384.Idx → EReal) (((cfg1.win 0).blk t).view.emb (ix2 p kk)) = _
    rw [ea]
  · show (V c main_v0 : S16384x128.Idx → EReal) (((cfg1.win 1).blk t).view.emb ((xRect t).emb (ix2 kk q))) = _
    rw [ex]

/-- One accumulation step at entry `(p, q)`: what was there plus the tile's run of terms. -/
theorem step_val (c : Dev nD) (t : Fin cfg1.N) (p : Fin 1024) (q : Fin 128) (r : Fin 16384)
    (hr : r.val = t.val / 8 * 1024 + p.val) (xs : Vec Ideal S1024x128 .f32) :
    k1_pay2 (F := Ideal) (adjBlk V c t) (xTile V c t) xs (ix2 p q)
      = xs (ix2 p q) + ∑ kk : Fin 2048, term (V c main_arg1) (V c main_v0) r q (t.val % 8 * 2048 + kk.val) :=
  (pay_acc (adjBlk V c t) (xTile V c t) xs p q).trans (congrArg (xs (ix2 p q) + ·) (tile_sum V c t p q r hr))

/-- At a first tile the accumulator holds the tile's run of terms (added to zero). -/
theorem acc_first (c : Dev nD) (t : Fin cfg1.N) (h0 : t.val % 8 = 0) (p : Fin 1024) (q : Fin 128) (r : Fin 16384)
    (hr : r.val = t.val / 8 * 1024 + p.val) :
    (stAt1 V c t.val t.isLt).2 (ix2 p q)
      = ∑ kk : Fin 2048, term (V c main_arg1) (V c main_v0) r q (t.val % 8 * 2048 + kk.val) := by
  have h1 : ¬t.val % 8 = 7 := by omega
  rw [stAt1_first V c t h0 h1]
  dsimp only
  rw [accFirst_eq]
  refine (step_val V c t p q r hr (k1_pay1 (F := Ideal))).trans ?_
  rw [pay_zero, zero_add]

/-- At a later tile it holds what the point before left plus the tile's run of terms. -/
theorem acc_later (c : Dev nD) (t : Fin cfg1.N) (h0 : ¬t.val % 8 = 0) (p : Fin 1024) (q : Fin 128) (r : Fin 16384)
    (hr : r.val = t.val / 8 * 1024 + p.val) :
    (stAt1 V c t.val t.isLt).2 (ix2 p q)
      = (stAt1 V c (t.val - 1) (Nat.lt_of_le_of_lt (Nat.sub_le _ _) t.isLt)).2 (ix2 p q)
        + ∑ kk : Fin 2048, term (V c main_arg1) (V c main_v0) r q (t.val % 8 * 2048 + kk.val) := by
  by_cases h1 : t.val % 8 = 7
  · rw [stAt1_last V c t h0 h1]
    dsimp only
    rw [accLast_eq]
    exact step_val V c t p q r hr _
  · rw [stAt1_mid V c t h0 h1]
    dsimp only
    rw [accMid_eq]
    exact step_val V c t p q r hr _

/-- At a last tile the output block receives what the accumulator ends with. -/
theorem out_last (c : Dev nD) (t : Fin cfg1.N) (h0 : ¬t.val % 8 = 0) (h1 : t.val % 8 = 7) :
    (stAt1 V c t.val t.isLt).1 = (stAt1 V c t.val t.isLt).2 := by
  rw [stAt1_last V c t h0 h1]
  dsimp only
  rw [outLast_eq, accLast_eq]

/-- THE ACCUMULATOR after position `n`, at entry `(p, q)` with `r = 1024 · (n / 8) + p`: the terms of entry `(r, q)` of
    `adj · x` over tiles `0 … n % 8`, tile by tile. By induction on `n`: a first tile starts the sum, a later tile adds
    its run of terms to the sum over the tiles before it. -/
theorem acc_inv (c : Dev nD) : ∀ (n : ℕ) (hn : n < cfg1.N) (p : Fin 1024) (q : Fin 128) (r : Fin 16384),
    r.val = n / 8 * 1024 + p.val →
    (stAt1 V c n hn).2 (ix2 p q)
      = ∑ kt ∈ Finset.range (n % 8 + 1), ∑ kk : Fin 2048, term (V c main_arg1) (V c main_v0) r q (kt * 2048 + kk.val) := by
  intro n
  induction n using Nat.strong_induction_on with
  | _ n ih =>
    intro hn p q r hr
    rw [Finset.sum_range_succ]
    by_cases h0 : n % 8 = 0
    · refine (acc_first V c ⟨n, hn⟩ h0 p q r hr).trans ?_
      show _ = ∑ kt ∈ Finset.range (n % 8), _ + _
      rw [h0, Finset.sum_range_zero, zero_add]
    · refine (acc_later V c ⟨n, hn⟩ h0 p q r hr).trans ?_
      have hprev := ih (n - 1) (by omega) (Nat.lt_of_le_of_lt (Nat.sub_le _ _) hn) p q r (by omega)
      rw [show (n - 1) % 8 + 1 = n % 8 from by omega] at hprev
      exact congrArg (· + _) hprev

/-- The aggregation `adj · x` of the arrays the region finds, as one array: entry `i` is `agg adj x (i 0) (i 1)`. -/
def aggArr (c : Dev nD) : S16384x128.Idx → EReal := fun i => agg (V c main_arg1) (V c main_v0) (i 0) (i 1)

/-- What a point that writes back (a last tile) writes is its block of `adj · x`: all 8 tiles' terms, which are all
    16384 terms of the entry. -/
theorem flushed1_eq (c : Dev nD) (t : Fin cfg1.N) (hf : (cfg1.win 2).flush t = true) :
    (dat1 (F := Ideal) V c).flushed 2 t = ((cfg1.win 2).blk t).view.read (Elt Ideal) (aggArr V c) := by
  have h7 : t.val % 8 = 7 := (flush1_2 t).mp hf
  have h0 : ¬t.val % 8 = 0 := by omega
  obtain ⟨e0, e1, e2, e3, e4, e5, e6, e7, e8⟩ := block_index1 t
  show (cfg1.win 2).cut (grid1.coords t) ((dat1 V c).after 2 t) = _
  rw [after1_2, out_last V c t h0 h7]
  funext j
  obtain ⟨p, q, rfl⟩ : ∃ (p : Fin 1024) (q : Fin 128), j = ix2 p q := ⟨j 0, j 1, eq_ix2 j⟩
  have hr : t.val / 8 * 1024 + p.val < 16384 := by have := p.isLt; omega
  have hcut : ∀ X : Vec Ideal S1024x128 .f32, (cfg1.win 2).cut (grid1.coords t) X (ix2 p q) = X (ix2 p q) := fun _ => rfl
  have hread : ∀ Y : S16384x128.Idx → EReal, ((cfg1.win 2).blk t).view.read (Elt Ideal) Y (ix2 p q)
      = Y (((cfg1.win 2).blk t).view.emb (ix2 p q)) := fun _ => rfl
  refine (hcut _).trans (Eq.trans ?_ (hread _).symm)
  -- entry (p, q) of the output's block is entry (1024·(t / 8) + p, q) of the array
  have eo : ((cfg1.win 2).blk t).view.emb (ix2 p q) = ix2 (⟨t.val / 8 * 1024 + p.val, hr⟩ : Fin 16384) q := by
    funext a; apply Fin.ext
    match a with
    | ⟨0, _⟩ => show win1_2.index t (0 : Fin 2) * 1024 + 1 * p.val = t.val / 8 * 1024 + p.val; omega
    | ⟨1, _⟩ => show win1_2.index t (1 : Fin 2) * 128 + 1 * q.val = q.val; omega
  rw [eo, acc_inv V c t.val t.isLt p q ⟨t.val / 8 * 1024 + p.val, hr⟩ rfl, show t.val % 8 + 1 = 8 from by omega]
  show _ = agg (V c main_arg1) (V c main_v0) ⟨t.val / 8 * 1024 + p.val, hr⟩ q
  rw [agg_eq_sum_term, sum_tiles]

/-- An entry of the array lies in the output's block at point `t` iff each coordinate lies in the block's range. -/
theorem mem_blk1 (t : Fin cfg1.N) (i : S16384x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v1).slice (win1_2.rect t)).set ↔ _
  rw [View.set_slice_whole, Rect.mem_set_unit]
  exact Iff.rfl

/-- The 16 output blocks tile the array: row `r` lies in the block written back at point `8 · (r / 1024) + 7`. -/
theorem cover1 (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hN : grid1.N = 128 := N_1
  have ht : 8 * ((i 0).val / 1024) + 7 < grid1.N := by omega
  obtain ⟨e0, e1, e2, e3, e4, e5, e6, e7, e8⟩ := block_index1 ⟨8 * ((i 0).val / 1024) + 7, ht⟩
  refine ⟨⟨8 * ((i 0).val / 1024) + 7, ht⟩, (flush1_2 _).mpr (by show (8 * ((i 0).val / 1024) + 7) % 8 = 7; omega), ?_⟩
  rw [mem_blk1]
  intro a
  match a with
  | ⟨0, _⟩ =>
    show win1_2.index ⟨8 * ((i 0).val / 1024) + 7, ht⟩ (0 : Fin 2) * 1024 ≤ (i 0).val
      ∧ (i 0).val < win1_2.index ⟨8 * ((i 0).val / 1024) + 7, ht⟩ (0 : Fin 2) * 1024 + 1024
    rw [e4]
    show (8 * ((i 0).val / 1024) + 7) / 8 * 1024 ≤ (i 0).val ∧ (i 0).val < (8 * ((i 0).val / 1024) + 7) / 8 * 1024 + 1024
    omega
  | ⟨1, _⟩ =>
    show win1_2.index ⟨8 * ((i 0).val / 1024) + 7, ht⟩ (1 : Fin 2) * 128 ≤ (i 1).val
      ∧ (i 1).val < win1_2.index ⟨8 * ((i 0).val / 1024) + 7, ht⟩ (1 : Fin 2) * 128 + 128
    rw [e5]; omega

/-- After the region's last point the result's array holds `adj · x` of the arrays the region found, at every entry. -/
theorem out_final (c : Dev nD) :
    (dat1 (F := Ideal) V c).arrAt 2 cfg1.N = fun i => agg (V c main_arg1) (V c main_v0) (i 0) (i 1) :=
  (dat1 V c).arrAt_eq_of_cover 2 (aggArr V c) (fun t hf => flushed1_eq V c t hf) cover1

end

end Cert.Val

end
-- ==== Proof.Bridge.lean ====
/-
  The kernel's result as one function of the argument arrays. Region 1 leaves in the result array, row p and column q,
  the sum over all 16384 columns k of adj(p,k) · x(k,q), where x is what region 0 left: x(k,q) the sum over j of
  inputs(k,j) · weights(j,q). That is the reference's function G. Both are the same terms added in a different
  grouping (eight tiles of 2048 against one run of 16384), so the only law used is that addition of extended reals is
  associative and commutative.
-/
import proofs.«138268_j53240414601890_2_alg».proof.Proof.KiRun
import proofs.«138268_j53240414601890_2_alg».proof.Proof.ValR0
import proofs.«138268_j53240414601890_2_alg».proof.Proof.ValR1b
import proofs.«138268_j53240414601890_2_alg».proof.Proof.Spec

noncomputable section

namespace Cert.Val

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What region 1's write-backs leave, from the launch contents: G of the three arguments. -/
theorem result_eq (c : Dev nD) :
    (dat1 (F := Ideal) (V1 m ρ) c).arrAt 2 cfg1.N
      = fun i => G (m ((c.tc : Thread nD τ).loc main_arg0)) (m ((c.tc : Thread nD τ).loc main_arg1)) (m ((c.tc : Thread nD τ).loc main_arg2)) (i 0) (i 1) := by
  rw [out_final (V1 m ρ) c]
  funext i
  rw [V1_main_arg1 m ρ c, V1_main_v0 m ρ c, x_final (V0 m ρ) c]
  rfl

/-- The kernel's run with its result named: G of the arguments; the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v1)
        = (fun i => G (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_value (F := Ideal) m ρ)

end Cert.Val

end
-- ==== Proof.lean ====
/-
  The certificate of a two-stage graph convolution: x = inputs · weights, then out = adj · x.

  The kernel runs two pipelined regions. Region 0 computes x one block of 2048 rows at a time. Region 1 walks a
  16 × 8 grid: for each block of 1024 output rows it adds up, over eight tiles of 2048 columns of adj, the product of
  the tile with the matching 2048 rows of x, in an accumulator that is zeroed at the first tile and copied to the
  output block at the last. The reference computes the two products whole.

  On the extended reals the roundings to the shorter float format are the identity, a product accumulated into zero is
  the plain sum of products, and the eight partial sums of 2048 terms are the one sum of 16384 terms regrouped: so the
  two programs compute the same function G, entry by entry, for all inputs (the finiteness of the inputs is not used).

  The three frame claims: each program terminates without fault and leaves its arguments as launched. For the kernel
  and its idealization this is the run of the two regions in order (Proof/KbRun.lean, Proof/KiRun.lean: the buffer
  contents at the two boundaries, region 1's invariant tracking the accumulator); for the reference it is the run of
  its two host operations. The idealization rewrote nothing, so the preservation claim is trivial.
-/
import proofs.«138268_j53240414601890_2_alg».proof.Defs
import proofs.«138268_j53240414601890_2_alg».proof.Proof.KbRun
import proofs.«138268_j53240414601890_2_alg».proof.Proof.KiRun
import proofs.«138268_j53240414601890_2_alg».proof.Proof.RefSide
import proofs.«138268_j53240414601890_2_alg».proof.Proof.Bridge

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := Cert.Val.frame_ri

theorem preserves : Cert.preserves_Kernel_KernelIdeal := trivial

/-- From memories that agree on the arguments both programs end with the result array at G of the arguments. -/
theorem algebraic : Cert.algebraic_KernelIdeal_ReferenceIdeal := by
  intro m ρ m' ρ' _ hagree
  refine ⟨fun c => (fun i => Cert.Val.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1)),
    Cert.Val.kernel_run m ρ, ?_⟩
  refine (θ_run Cert.ReferenceIdeal.defs _ _).mono (fun _ h c => ⟨(h c).1.trans ?_, (h c).2⟩) (Cert.Val.ref_run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
